-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_arg10 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_v33

def fn {F : FTy → Type} [FloatOps F] (main_arg0 : FVec F S2x2048x1024 .f32) (main_arg1 : IVec S1x1x2048x2048 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_v13 main_v16
-- ==== Kernel.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S4096x1024 : Shape := ⟨2, ![4096, 1024]⟩
abbrev S2x16x2048x64 : Shape := ⟨4, ![2, 16, 2048, 64]⟩
abbrev S256x1024 : Shape := ⟨2, ![256, 1024]⟩
abbrev S1x16x256x64 : Shape := ⟨4, ![1, 16, 256, 64]⟩
abbrev S256 : Shape := ⟨1, ![256]⟩
abbrev S256x1 : Shape := ⟨2, ![256, 1]⟩
abbrev S1x1024 : Shape := ⟨2, ![1, 1024]⟩
abbrev S256x16x64 : Shape := ⟨3, ![256, 16, 64]⟩
abbrev S16x256x64 : Shape := ⟨3, ![16, 256, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x1x512x2048 : Shape := ⟨4, ![1, 1, 512, 2048]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 32
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S2x16x2048x64, .bf16⟩
  | .hbm, ⟨21, _⟩ => ⟨S2x16x2048x64, .bf16⟩
  | .hbm, ⟨22, _⟩ => ⟨S2x16x2048x64, .bf16⟩
  | .hbm, ⟨23, _⟩ => ⟨S32x2048x64, .bf16⟩
  | .hbm, ⟨24, _⟩ => ⟨S32x2048x64, .bf16⟩
  | .hbm, ⟨25, _⟩ => ⟨S32x2048x64, .bf16⟩
  | .hbm, ⟨26, _⟩ => ⟨S32x2048x2048, .f32⟩
  | .hbm, ⟨27, _⟩ => ⟨S32x2048x64, .bf16⟩
  | .hbm, ⟨28, _⟩ => ⟨S2x16x2048x64, .bf16⟩
  | .hbm, ⟨29, _⟩ => ⟨S4096x1024, .f32⟩
  | .hbm, ⟨30, _⟩ => ⟨S2x2048x1024, .f32⟩
  | .hbm, ⟨31, _⟩ => ⟨S2x16x2048x2048, .f32⟩
  | .local _ .vmem, ⟨0, _⟩ => ⟨S256x1024, .f32⟩
  | .local _ .vmem, ⟨1, _⟩ => ⟨S256x1024, .f32⟩
  | .local _ .vmem, ⟨2, _⟩ => ⟨S1024, .f32⟩
  | .local _ .vmem, ⟨3, _⟩ => ⟨S1024x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1024x1024, .bf16⟩
  | .local _ .vmem, ⟨8, _⟩ => ⟨S1024, .f32⟩
  | .local _ .vmem, ⟨9, _⟩ => ⟨S1x16x256x64, .bf16⟩
  | .local _ .vmem, ⟨10, _⟩ => ⟨S1x16x256x64, .bf16⟩
  | .local _ .vmem, ⟨11, _⟩ => ⟨S1x16x256x64, .bf16⟩
  | .local _ .vmem, ⟨12, _⟩ => ⟨S1x16x256x64, .bf16⟩
  | .local _ .vmem, ⟨13, _⟩ => ⟨S1x16x256x64, .bf16⟩
  | .local _ .vmem, ⟨14, _⟩ => ⟨S1x16x256x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x1x512x2048, .i32⟩
  | .local _ .vmem, ⟨22, _⟩ => ⟨S1x512x2048, .f32⟩
  | .local _ .vmem, ⟨23, _⟩ => ⟨S1x512x2048, .f32⟩
  | .local _ .vmem, ⟨24, _⟩ => ⟨S1x512x64, .bf16⟩
  | .local _ .vmem, ⟨25, _⟩ => ⟨S1x512x64, .bf16⟩
  | .local _ .vmem, ⟨26, _⟩ => ⟨S1x16x256x64, .bf16⟩
  | .local _ .vmem, ⟨27, _⟩ => ⟨S1x16x256x64, .bf16⟩
  | .local _ .vmem, ⟨28, _⟩ => ⟨S256x1024, .f32⟩
  | .local _ .vmem, ⟨29, _⟩ => ⟨S256x1024, .f32⟩
  | .local _ .vmem, ⟨30, _⟩ => ⟨S1024x1024, .bf16⟩
  | .local _ .vmem, ⟨31, _⟩ => ⟨S1024, .f32⟩
  | .local _ .vmem, ⟨32, _⟩ => ⟨S256x1024, .f32⟩
  | .local _ .vmem, ⟨33, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1x512x2048 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![16], ![false]⟩

def cc2_transform_0 (i : grid2.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x16x256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  packedbf16_S1x16x256x64_S1x16x256x64_0_0_0_0 : (Rect.unit (s := S1x16x256x64) ![0, 0, 0, 0] S1x16x256x64.size inb_S1x16x256x64_S1x16x256x64_0_0_0_0).PackedRows (EltTy.packing .bf16)
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S16x256x64_p1_0_2_S256x16x64 : S16x256x64.Transposes [1, 0, 2] S256x16x64
  shapeCasts_S256x16x64_S256x1024 : S256x16x64.ShapeCasts S256x1024
  shapeCasts_S4096x1024_S2x2048x1024 : S4096x1024.ShapeCasts S2x2048x1024
  shapeCasts_S32x2048x2048_S2x16x2048x2048 : S32x2048x2048.ShapeCasts S2x16x2048x2048
  dot_S256x1024_S1024x1024_S256x1024_1_0_0_1_n_n_wf : DotDims.WF S256x1024 S1024x1024 S256x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256x64.size a ≤ S2x16x2048x64.size a
  hwx0_8 : ∀ i : grid0.Coords, EltTy.bits .bf16 = 32 ∨ (Rect.block (s := S2x16x2048x64) S1x16x256x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x256x64.size a ≤ S2x16x2048x64.size a
  hwx0_9 : ∀ i : grid0.Coords, EltTy.bits .bf16 = 32 ∨ (Rect.block (s := S2x16x2048x64) S1x16x256x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16x256x64.size a ≤ S2x16x2048x64.size a
  hwx0_10 : ∀ i : grid0.Coords, EltTy.bits .bf16 = 32 ∨ (Rect.block (s := S2x16x2048x64) S1x16x256x64.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x512x2048.size a ≤ S1x1x2048x2048.size a
  hwx1_3 : ∀ i : grid1.Coords, EltTy.bits .i32 = 32 ∨ (Rect.block (s := S1x1x2048x2048) S1x1x512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S32x2048x2048.size a
  hwx1_4 : ∀ i : grid1.Coords, EltTy.bits .f32 = 32 ∨ (Rect.block (s := S32x2048x2048) S1x512x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x64.size a ≤ S32x2048x64.size a
  hwx1_5 : ∀ i : grid1.Coords, EltTy.bits .bf16 = 32 ∨ (Rect.block (s := S32x2048x64) S1x512x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x256x64.size a ≤ S2x16x2048x64.size a
  hwx2_0 : ∀ i : grid2.Coords, EltTy.bits .bf16 = 32 ∨ (Rect.block (s := S2x16x2048x64) S1x16x256x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S4096x1024.size a
  hwx2_4 : ∀ i : grid2.Coords, EltTy.bits .f32 = 32 ∨ (Rect.block (s := S4096x1024) S256x1024.size (cc2_transform_4 i) (hinb2_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1x16x256x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x16x256x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S1x16x256x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v10) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x512x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S1x512x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S1x16x256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S256x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x16x64, .f32⟩
  | .hbm, ⟨32, _⟩ => ⟨S2x16x2048x64, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x16x64, .f32⟩
  | .hbm, ⟨38, _⟩ => ⟨S2x16x2048x64, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x2048x16x64, .f32⟩
  | .hbm, ⟨44, _⟩ => ⟨S2x16x2048x64, .f32⟩
  | .hbm, ⟨45, _⟩ => ⟨S2x16x2048x2048, .f32⟩
  | .hbm, ⟨46, _⟩ => ⟨S_, .f32⟩
  | .hbm, ⟨47, _⟩ => ⟨S_, .f32⟩
  | .hbm, ⟨48, _⟩ => ⟨S2x16x2048x2048, .f32⟩
  | .hbm, ⟨49, _⟩ => ⟨S2x16x2048x2048, .f32⟩
  | .hbm, ⟨50, _⟩ => ⟨S_, .i32⟩
  | .hbm, ⟨51, _⟩ => ⟨S1x1x2048x2048, .i32⟩
  | .hbm, ⟨52, _⟩ => ⟨S1x1x2048x2048, .i1⟩
  | .hbm, ⟨53, _⟩ => ⟨S_, .f32⟩
  | .hbm, ⟨54, _⟩ => ⟨S2x16x2048x2048, .i1⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S_, .f32⟩
  | .hbm, ⟨60, _⟩ => ⟨S2x16x2048, .f32⟩
  | .hbm, ⟨61, _⟩ => ⟨S2x16x2048, .f32⟩
  | .hbm, ⟨62, _⟩ => ⟨S2x16x2048x1, .f32⟩
  | .hbm, ⟨63, _⟩ => ⟨S2x16x2048x2048, .f32⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S2x16x2048, .f32⟩
  | .hbm, ⟨68, _⟩ => ⟨S2x16x2048x1, .f32⟩
  | .hbm, ⟨69, _⟩ => ⟨S2x16x2048x2048, .f32⟩
  | .hbm, ⟨70, _⟩ => ⟨S2x16x2048x2048, .f32⟩
  | .hbm, ⟨71, _⟩ => ⟨S2x16x2048x64, .f32⟩
  | .hbm, ⟨72, _⟩ => ⟨S2x2048x16x64, .f32⟩
  | .hbm, ⟨73, _⟩ => ⟨S2x2048x1024, .f32⟩
  | .hbm, ⟨74, _⟩ => ⟨S2x2048x1024, .f32⟩
  | .hbm, ⟨75, _⟩ => ⟨S1x1x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's whole run with its two results named.

  @main is four stretches of host operations around three kernel regions.  The buffer contents at the
  seven boundaries are a fold from the launch memory (each stretch applies its operations, each region
  replaces its arrays by what its write-backs leave).  Run from any memory, every weakly fair execution
  terminates without a fault, and the final memory holds, at every unscoped buffer, the last boundary's
  contents: in particular at the two result buffers, and at the eleven argument buffers (which no
  stretch and no region writes).
-/
import proofs.«104772_j69398081569166_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results read at the last boundary's contents. -/
theorem run : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_v17) = W7 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       h c _ (mem_uc main_v17 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Named

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibAffineRow.lean ====
/-
  An affine layer read at an index, on the extended reals.

  * A bias vector `[N]` cast to one row `[1, N]` and broadcast over `M` rows reads, at `(r, j)`, the bias at `j`.
  * A matrix product of an `M×K` by a `K×N` matrix into a zero accumulator, plus such a bias, reads at `(r, j)`
    `Σₖ l[r,k]·w[k,j] + b[j]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«104772_j69398081569166_2_alg».proof.Proof.LibPlainDot

noncomputable section

open scoped BigOperators

namespace Cert.Lib

open Idealize.ShloMosaic Idealize.ShloMosaic.ValueIdx

/-- A bias vector cast to one row and broadcast over the rows, at `(r, j)`, is the bias at `j`. -/
theorem bias_rows_apply {α : Type} {M N : ℕ} (b : (⟨1, ![N]⟩ : Shape).Idx → α)
    (hs : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b hs) hb (ix2 r j) = b (ix1 j) :=
  (broadcastTo_1b_ab_apply (shapeCast ⟨2, ![1, N]⟩ b hs) hb r j).trans (shapeCast_a_1a_apply b hs 0 j)

/-- AN AFFINE LAYER at `(r, j)`: the product into a zero accumulator plus the bias row is `Σₖ l[r,k]·w[k,j] + b[j]`. -/
theorem matmul_bias_apply (M K N : ℕ) {φ₁ φ₂ : FTy} (prec : Option ContractPrecision)
    (l : FVec Ideal ⟨2, ![M, K]⟩ φ₁) (w : FVec Ideal ⟨2, ![K, N]⟩ φ₂) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    addf (matmul (DotDims.plain M K N) prec l w (constant ⟨2, ![M, N]⟩ .f32 0x00000000#32))
        (broadcastTo ⟨2, ![M, N]⟩ (shapeCast ⟨2, ![1, N]⟩ b hs) hb) (ix2 r j)
      = (∑ k : Fin K, l (ix2 r k) * w (ix2 k j)) + b (ix1 j) := by
  rw [addf_apply, plain_matmul_zero_apply, bias_rows_apply]

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibHeadLayout.lean ====
/-
  Head split and merge, read at an index.

  Attention layers keep a [rows, heads·width] matrix as [rows, heads, width], swap the two leading axes to
  [heads, rows, width], and fold a leading batch axis into the head axis ([a, b, c, d] as [a·b, c, d]).
  Each lemma reads one such re-laying at an index built from its coordinates; all are positions in the
  row-major order of the literal shapes.
-/
import Idealize.ShloMosaic.Lib.Pipeline.Value
import Idealize.ShloMosaic.Lib.ValueIdx

noncomputable section

namespace Cert.LibHeadLayout

open Idealize.ShloMosaic Idealize.ShloMosaic.ValueIdx

variable {α : Type}

/-- A rank-3 array with its two leading axes swapped reads, at `(j, i, k)`, the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- An `[a, n]` matrix cast to `[a, b, c]` (n = b·c) reads, at `(i, j, k)`, the operand at `(i, j·c + k)`. -/
theorem shapeCast_split_apply {a n b c : ℕ} (x : (⟨2, ![a, n]⟩ : Shape).Idx → α)
    (h : (⟨2, ![a, n]⟩ : Shape).ShapeCasts ⟨3, ![a, b, c]⟩) (hn : n = b * c) (i : Fin a) (j : Fin b) (k : Fin c) (e : Fin n)
    (he : e.val = j.val * c + k.val) :
    shapeCast ⟨3, ![a, b, c]⟩ x h (ix3 i j k) = x (ix2 i e) :=
  shapeCast_apply x h _ _ (by
    rw [Shape.rowMajor_val_three, Shape.rowMajor_val_two]
    show i.val * n + e.val = (i.val * b + j.val) * c + k.val
    rw [he, hn, Nat.add_mul, Nat.mul_assoc, Nat.add_assoc])

/-- An `[a, b, c]` array cast to `[a, n]` (n = b·c) reads, at `(i, j·c + k)`, the operand at `(i, j, k)`. -/
theorem shapeCast_merge_apply {a n b c : ℕ} (x : (⟨3, ![a, b, c]⟩ : Shape).Idx → α)
    (h : (⟨3, ![a, b, c]⟩ : Shape).ShapeCasts ⟨2, ![a, n]⟩) (hn : n = b * c) (i : Fin a) (j : Fin b) (k : Fin c) (e : Fin n)
    (he : e.val = j.val * c + k.val) :
    shapeCast ⟨2, ![a, n]⟩ x h (ix2 i e) = x (ix3 i j k) :=
  shapeCast_apply x h _ _ (by
    rw [Shape.rowMajor_val_three, Shape.rowMajor_val_two]
    show (i.val * b + j.val) * c + k.val = i.val * n + e.val
    rw [he, hn, Nat.add_mul, Nat.mul_assoc, Nat.add_assoc])

/-- An `[a, b, c, d]` array cast to `[N, c, d]` (N = a·b) reads, at `(R, k, l)` with `R = i·b + j`, the operand at `(i, j, k, l)`. -/
theorem shapeCast_fold_apply {a b c d N : ℕ} (x : (⟨4, ![a, b, c, d]⟩ : Shape).Idx → α)
    (h : (⟨4, ![a, b, c, d]⟩ : Shape).ShapeCasts ⟨3, ![N, c, d]⟩) (i : Fin a) (j : Fin b) (k : Fin c) (l : Fin d) (R : Fin N)
    (hR : R.val = i.val * b + j.val) :
    shapeCast ⟨3, ![N, c, d]⟩ x h (ix3 R k l) = x (ix4 i j k l) :=
  shapeCast_apply x h _ _ (by
    rw [Shape.rowMajor_val_four, Shape.rowMajor_val_three]
    show ((i.val * b + j.val) * c + k.val) * d + l.val = (R.val * c + k.val) * d + l.val
    rw [hR])

/-- An `[N, c, d]` array cast to `[a, b, c, d]` (N = a·b) reads, at `(i, j, k, l)`, the operand at `(i·b + j, k, l)`. -/
theorem shapeCast_unfold_apply {a b c d N : ℕ} (y : (⟨3, ![N, c, d]⟩ : Shape).Idx → α)
    (h : (⟨3, ![N, c, d]⟩ : Shape).ShapeCasts ⟨4, ![a, b, c, d]⟩) (i : Fin a) (j : Fin b) (k : Fin c) (l : Fin d) (R : Fin N)
    (hR : R.val = i.val * b + j.val) :
    shapeCast ⟨4, ![a, b, c, d]⟩ y h (ix4 i j k l) = y (ix3 R k l) :=
  shapeCast_apply y h _ _ (by
    rw [Shape.rowMajor_val_four, Shape.rowMajor_val_three]
    show (R.val * c + k.val) * d + l.val = ((i.val * b + j.val) * c + k.val) * d + l.val
    rw [hR])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.LibHeadLayout

end
-- ==== Proof.Spec.lean ====
/-
  The mathematics both programs compute, one row at a time, on the extended reals.

  * A row `x` of 1024 entries is normalised by its root mean square: each entry times
    `(Σ x² / 1024 + ε)^(-1/2)` times a gain; a projection is the normalised row against a weight row plus a bias.
  * A query row against 2048 key rows gives scores `(q · k) / 8`, replaced by `-10⁹` where the mask is zero; the
    attention weights are `exp (s - max s) / Σ exp (s - max s)`; the context is the weights against the value rows.
  * The output adds to the input entry the context row against a weight row plus a bias.

  Every quantity is a function of ROW ACCESSORS (an entry by its position in the row), so the kernel's blocks and
  the reference's whole arrays instantiate the same definitions at their own ways of reaching a row.
-/
import Idealize.ShloMosaic.PureOps.Ideal

noncomputable section

namespace Cert.Spec

open Idealize.ShloMosaic

/-- The mean-square's guard `ε`. -/
def eps : EReal := Ideal.ofBits .f32 0x34000000#32
/-- The row length `1024.0`. -/
def len : EReal := Ideal.ofBits .f32 0x44800000#32
/-- The masked score `-10⁹`. -/
def masked : EReal := Ideal.ofBits .f32 0xCE6E6B28#32
/-- The scale `0.125`. -/
def eighth : EReal := Ideal.ofBits .f32 0x3E000000#32
/-- The maximum's starting value `-∞`. -/
def ninf : EReal := Ideal.ofBits .f32 0xFF800000#32

/-- The inverse root mean square of a row. -/
def invRms (x : Fin 1024 → EReal) : EReal :=
  Ideal.rsqrt (Ideal.div (∑ k : Fin 1024, x k * x k) len + eps)

/-- The normalised row. -/
def normRow (x g : Fin 1024 → EReal) (k : Fin 1024) : EReal := x k * invRms x * g k

/-- One projected entry: the normalised row against a weight row, plus the bias. -/
def projRow (x g w : Fin 1024 → EReal) (b : EReal) : EReal := (∑ k : Fin 1024, normRow x g k * w k) + b

/-- One score: the scaled product of a query row and a key row, or the masked value where the mask word is zero. -/
def score (q : Fin 64 → EReal) (k : Fin 64 → EReal) (m : BitVec 32) : EReal :=
  Scalar.select (IntOp.cmpi .eq m 0#32) masked ((∑ d : Fin 64, q d * k d) * eighth)

/-- The softmax of a row of scores at one position. -/
def softmax (s : Fin 2048 → EReal) (k : Fin 2048) : EReal :=
  Ideal.div (Ideal.exp (s k - (Finset.univ : Finset (Fin 2048)).fold max ninf s))
    (∑ k' : Fin 2048, Ideal.exp (s k' - (Finset.univ : Finset (Fin 2048)).fold max ninf s))

/-- One attention weight. -/
def attnRow (q : Fin 64 → EReal) (ks : Fin 2048 → Fin 64 → EReal) (m : Fin 2048 → BitVec 32) (k : Fin 2048) : EReal :=
  softmax (fun k' => score q (ks k') (m k')) k

/-- One context entry: the attention weights against one column of the value rows. -/
def ctxRow (a : Fin 2048 → EReal) (v : Fin 2048 → EReal) : EReal := ∑ k : Fin 2048, a k * v k

/-- One output entry: the input entry plus the merged context row against a weight row plus the bias. -/
def outRow (x : EReal) (c w : Fin 1024 → EReal) (b : EReal) : EReal := x + ((∑ k : Fin 1024, c k * w k) + b)

/-- The column of head `h`, position `d`, in a merged row of 16 heads of width 64. -/
def col (h : Fin 16) (d : Fin 64) : Fin 1024 := ⟨h.val * 64 + d.val, by have := h.isLt; have := d.isLt; omega⟩

/-- The head of a merged column. -/
def headOf (k : Fin 1024) : Fin 16 := ⟨k.val / 64, by have := k.isLt; omega⟩
/-- The position inside its head of a merged column. -/
def posOf (k : Fin 1024) : Fin 64 := ⟨k.val % 64, by omega⟩

theorem col_headOf_posOf (k : Fin 1024) : (k : ℕ) = (headOf k).val * 64 + (posOf k).val := by
  show k.val = k.val / 64 * 64 + k.val % 64
  omega

end Cert.Spec

end
-- ==== Proof.Body0.lean ====
/-
  What the projection kernel's body stores, read at an index.

  A block holds 256 rows of the input.  The body normalises each row by its root mean square, multiplies the
  normalised block into a 1024×1024 weight matrix, adds the bias row, and stores the 256×1024 result as
  16 heads of 256×64.  So the entry at head `h`, row `r`, position `d` is the projected entry of row `r` at
  column `64·h + d`.  The three outputs differ only in the weight matrix and the bias.
-/
import proofs.«104772_j69398081569166_2_alg».proof.Proof.Gen.KernelIdeal.Skeleton
import proofs.«104772_j69398081569166_2_alg».proof.Proof.LibPlainDot
import proofs.«104772_j69398081569166_2_alg».proof.Proof.LibAffineRow
import proofs.«104772_j69398081569166_2_alg».proof.Proof.LibKeepdims
import proofs.«104772_j69398081569166_2_alg».proof.Proof.LibRowReduce
import proofs.«104772_j69398081569166_2_alg».proof.Proof.LibHeadLayout
import proofs.«104772_j69398081569166_2_alg».proof.Proof.Spec
import Idealize.ShloMosaic.Lib.ValueLayout

noncomputable section

namespace Cert.KernelIdeal.Body0

open Cert.KernelIdeal Cert.KernelIdeal.Gen
open Idealize.ShloMosaic Idealize.ShloMosaic.ValueIdx Cert.Spec

theorem dot_plain : dot_S256x1024_S1024x1024_S256x1024_1_0_0_1_n_n = DotDims.plain 256 1024 1024 := rfl

/-- The row scale broadcast over the block: at `(r, k)`, the inverse root mean square of row `r`. -/
theorem scale_apply (X : FVec Ideal S256x1024 .f32) (h1 : S256x1024.Reduces [1] S256) (h2 : S256.ShapeCasts S256x1)
    (h3 : S256x1.Broadcasts S256x1024) (hφ) (hacc) (r : Fin 256) (k : Fin 1024) :
    broadcastTo S256x1024 (rsqrt (addf (divf (shapeCast S256x1 (multiReduction .add [1] S256 (mulf X X) 0x00000000#32 h1 hφ hacc) h2)
        (broadcast S256x1 (Scalar.ofBits (F := Ideal) .f32 0x44800000#32))) (broadcast S256x1 (Scalar.ofBits (F := Ideal) .f32 0x34000000#32)))) h3 (ix2 r k)
      = invRms (fun k' => X (ix2 r k')) := by
  refine (Cert.Lib.broadcastTo_a1_ab_apply _ h3 r k).trans ?_
  show Ideal.rsqrt (Ideal.div (shapeCast S256x1 (multiReduction .add [1] S256 (mulf X X) 0x00000000#32 h1 hφ hacc) h2 (ix2 r (0 : Fin 1))) len + eps) = _
  rw [Cert.Lib.shapeCast_a_a1_apply, Cert.Lib.multiReduction_add_row]
  rfl

/-- The normalised block at `(r, k)`. -/
theorem norm_apply (x0 : Vec Ideal S256x1024 .f32) (gv : Vec Ideal S1024 .f32) (r : Fin 256) (k : Fin 1024) :
    k0_pay3 (F := Ideal) x0 gv (ix2 r k) = normRow (fun k' => x0 (ix2 r k')) (fun k' => gv (ix1 k')) k := by
  unfold k0_pay3
  rw [shapeCast_self]
  exact congrArg₂ (· * ·) (congrArg (x0 (ix2 r k) * ·) (scale_apply x0 _ _ _ _ _ r k)) (Cert.Lib.bias_rows_apply gv _ _ r k)

/-- A projected block stored head by head, at head `h`, row `r`, position `d`. -/
theorem heads_apply (n : FVec Ideal S256x1024 .bf16) (wT : Vec Ideal S1024x1024 .bf16) (bv : Vec Ideal S1024 .f32)
    (h1 : S1024x1024.ShapeCasts S1024x1024) (h2 : S1024.ShapeCasts S1x1024) (h3 : S1x1024.Broadcasts S256x1024)
    (h4 : S256x1024.ShapeCasts S256x16x64) (h5 : S256x16x64.Transposes [1, 0, 2] S16x256x64) (h6 : FTy.bf16.bits < FTy.f32.bits)
    (h7 : S16x256x64.ShapeCasts S1x16x256x64)
    (h : Fin 16) (r : Fin 256) (d : Fin 64) :
    shapeCast S1x16x256x64 (truncf .bf16 (transpose S16x256x64 [1, 0, 2] (shapeCast S256x16x64
        (addf (matmul dot_S256x1024_S1024x1024_S256x1024_1_0_0_1_n_n none n (shapeCast S1024x1024 wT h1 : FVec Ideal S1024x1024 .bf16) (constant S256x1024 .f32 0x00000000#32))
          (broadcastTo S256x1024 (shapeCast S1x1024 bv h2 : FVec Ideal S1x1024 .f32) h3)) h4)
        h5) h6) h7 (ix4 (0 : Fin 1) h r d)
      = (∑ k : Fin 1024, n (ix2 r k) * wT (ix2 k (col h d))) + bv (ix1 (col h d)) := by
  rw [shapeCast_abc_1abc_apply, truncf_apply, Cert.LibHeadLayout.transpose_ix3_102_apply,
    Cert.LibHeadLayout.shapeCast_split_apply _ _ (by norm_num) r h d (col h d) rfl, dot_plain,
    Cert.Lib.matmul_bias_apply]
  simp only [shapeCast_self]

/-- The first output's payload at `(0, h, r, d)`. -/
theorem pay_q (x0 : Vec Ideal S256x1024 .f32) (gv : Vec Ideal S1024 .f32) (wT : Vec Ideal S1024x1024 .bf16) (bv : Vec Ideal S1024 .f32)
    (h : Fin 16) (r : Fin 256) (d : Fin 64) :
    k0_pay4 (F := Ideal) x0 gv wT bv (ix4 (0 : Fin 1) h r d)
      = projRow (fun k => x0 (ix2 r k)) (fun k => gv (ix1 k)) (fun k => wT (ix2 k (col h d))) (bv (ix1 (col h d))) := by
  unfold k0_pay4
  refine (heads_apply _ wT bv _ _ _ _ _ _ _ h r d).trans ?_
  unfold projRow
  exact congrArg (· + bv (ix1 (col h d))) (Finset.sum_congr rfl fun k _ => congrArg (· * wT (ix2 k (col h d))) (norm_apply x0 gv r k))

/-- The second output's payload at `(0, h, r, d)`. -/
theorem pay_k (x0 : Vec Ideal S256x1024 .f32) (gv : Vec Ideal S1024 .f32) (wT : Vec Ideal S1024x1024 .bf16) (bv : Vec Ideal S1024 .f32)
    (h : Fin 16) (r : Fin 256) (d : Fin 64) :
    k0_pay1 (F := Ideal) (k0_pay5 x0 gv wT bv) (ix4 (0 : Fin 1) h r d)
      = projRow (fun k => x0 (ix2 r k)) (fun k => gv (ix1 k)) (fun k => wT (ix2 k (col h d))) (bv (ix1 (col h d))) := by
  unfold k0_pay1 k0_pay5
  refine (heads_apply _ wT bv _ _ _ _ _ _ _ h r d).trans ?_
  unfold projRow
  exact congrArg (· + bv (ix1 (col h d))) (Finset.sum_congr rfl fun k _ => congrArg (· * wT (ix2 k (col h d))) (norm_apply x0 gv r k))

/-- The third output's payload at `(0, h, r, d)`. -/
theorem pay_v (x0 : Vec Ideal S256x1024 .f32) (gv : Vec Ideal S1024 .f32) (wT : Vec Ideal S1024x1024 .bf16) (bv : Vec Ideal S1024 .f32)
    (h : Fin 16) (r : Fin 256) (d : Fin 64) :
    k0_pay2 (F := Ideal) (k0_pay3 x0 gv) wT bv (ix4 (0 : Fin 1) h r d)
      = projRow (fun k => x0 (ix2 r k)) (fun k => gv (ix1 k)) (fun k => wT (ix2 k (col h d))) (bv (ix1 (col h d))) := by
  unfold k0_pay2
  refine (heads_apply _ wT bv _ _ _ _ _ _ _ h r d).trans ?_
  unfold projRow
  exact congrArg (· + bv (ix1 (col h d))) (Finset.sum_congr rfl fun k _ => congrArg (· * wT (ix2 k (col h d))) (norm_apply x0 gv r k))

end Cert.KernelIdeal.Body0

end
-- ==== Proof.Region0.lean ====
/-
  The projection kernel's three output arrays after its region, entry by entry.

  The grid has 16 points; point `t` reads rows `256·t … 256·t + 255` of the flattened input and writes, for
  batch `t / 8`, rows `256·(t % 8) …` of every head.  The blocks tile each output array, so the entry of
  batch `b`, head `h`, row `s`, position `d` is the projection of input row `2048·b + s` at column `64·h + d`.
-/
import proofs.«104772_j69398081569166_2_alg».proof.Proof.Gen.KernelIdeal.Frame
import proofs.«104772_j69398081569166_2_alg».proof.Proof.Body0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps, decided over the grid. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) = t.val / 8 ∧ win0_8.index t (1 : Fin 4) = 0 ∧ win0_8.index t (2 : Fin 4) = t.val % 8 ∧ win0_8.index t (3 : Fin 4) = 0
    ∧ win0_9.index t (0 : Fin 4) = t.val / 8 ∧ win0_9.index t (1 : Fin 4) = 0 ∧ win0_9.index t (2 : Fin 4) = t.val % 8 ∧ win0_9.index t (3 : Fin 4) = 0
    ∧ win0_10.index t (0 : Fin 4) = t.val / 8 ∧ win0_10.index t (1 : Fin 4) = 0 ∧ win0_10.index t (2 : Fin 4) = t.val % 8 ∧ win0_10.index t (3 : Fin 4) = 0 :=
  (by decide +kernel : ∀ t : Fin grid0.N, _)

/-! ## The input blocks, read where they sit in their arrays -/

/-- Row `r` of the input block at point `t` is row `256·t + r` of the flattened input. -/
theorem read_x (c : Dev nD) (t : Fin cfg0.N) (r : Fin 256) (k : Fin 1024) (R : Fin 4096) (hR : R.val = t.val * 256 + r.val) :
    iblk0 V c 0 t (ix2 r k) = (V c main_v0 : S4096x1024.Idx → EReal) (ix2 R k) := by
  show (V c main_v0 : S4096x1024.Idx → EReal) (((cfg0.win 0).blk t).view.emb (ix2 r k)) = _
  refine congrArg _ (funext fun a => Fin.ext ?_)
  obtain ⟨e0, e1, -⟩ := idx_facts t
  match a with
  | ⟨0, _⟩ => show win0_0.index t (0 : Fin 2) * 256 + 1 * r.val = R.val; omega
  | ⟨1, _⟩ => show win0_0.index t (1 : Fin 2) * 1024 + 1 * k.val = k.val; omega

/-- The gain block is the whole gain vector. -/
theorem read_g (c : Dev nD) (t : Fin cfg0.N) (k : Fin 1024) :
    iblk0 V c 1 t (ix1 k) = (V c main_arg10 : S1024.Idx → EReal) (ix1 k) := by
  show (V c main_arg10 : S1024.Idx → EReal) (((cfg0.win 1).blk t).view.emb (ix1 k)) = _
  refine congrArg _ (funext fun a => Fin.ext ?_)
  obtain ⟨-, -, e2, -⟩ := idx_facts t
  match a with
  | ⟨0, _⟩ => show win0_1.index t (0 : Fin 1) * 1024 + 1 * k.val = k.val; omega

/-- The first weight block is the whole first weight matrix. -/
theorem read_w2 (c : Dev nD) (t : Fin cfg0.N) (k e : Fin 1024) :
    iblk0 V c 2 t (ix2 k e) = (V c main_v2 : S1024x1024.Idx → EReal) (ix2 k e) := by
  show (V c main_v2 : S1024x1024.Idx → EReal) (((cfg0.win 2).blk t).view.emb (ix2 k e)) = _
  refine congrArg _ (funext fun a => Fin.ext ?_)
  obtain ⟨-, -, -, e3, e4, -⟩ := idx_facts t
  match a with
  | ⟨0, _⟩ => show win0_2.index t (0 : Fin 2) * 1024 + 1 * k.val = k.val; omega
  | ⟨1, _⟩ => show win0_2.index t (1 : Fin 2) * 1024 + 1 * e.val = e.val; omega

/-- The first bias block is the whole first bias vector. -/
theorem read_b3 (c : Dev nD) (t : Fin cfg0.N) (k : Fin 1024) :
    iblk0 V c 3 t (ix1 k) = (V c main_arg3 : S1024.Idx → EReal) (ix1 k) := by
  show (V c main_arg3 : S1024.Idx → EReal) (((cfg0.win 3).blk t).view.emb (ix1 k)) = _
  refine congrArg _ (funext fun a => Fin.ext ?_)
  obtain ⟨-, -, -, -, -, e5, -⟩ := idx_facts t
  match a with
  | ⟨0, _⟩ => show win0_3.index t (0 : Fin 1) * 1024 + 1 * k.val = k.val; omega

/-! ## The first output -/

/-- What point `t` writes back to the first output is the body's first payload of the point's blocks. -/
theorem flushed_q (c : Dev nD) (t : Fin cfg0.N) (y : S1x16x256x64.Idx) :
    (dat0 V c).flushed 8 t y = k0_pay4 (iblk0 V c 0 t) (iblk0 V c 1 t) (iblk0 V c 2 t) (iblk0 V c 3 t) y := by
  show (cfg0.win 8).cut (grid0.coords t) ((dat0 V c).after 8 t) y = _
  rw [after0_8]
  unfold out0_8
  rw [View.canon_unit_zero hz4]
  simp only [View.ld_unit_zero (S := S256x1024) hz2, View.ld_unit_zero (S := S1024) hz1, View.ld_unit_zero (S := S1024x1024) hz2]
  rfl

/-- An index of an output array is in point `t`'s block iff each coordinate is in the block's range on its axis. -/
theorem mem_blk_q (t : Fin cfg0.N) (i : S2x16x2048x64.Idx) :
    i ∈ ((cfg0.win 8).blk t).view.set ↔ ∀ a : Fin 4, win0_8.index t a * S1x16x256x64.size a ≤ (i a).val ∧ (i a).val < win0_8.index t a * S1x16x256x64.size a + S1x16x256x64.size a := by
  show i ∈ ((View.whole main_v9_0).slice (win0_8.rect t)).set ↔ _
  rw [View.set_slice_whole, Rect.mem_set_unit]
  exact Iff.rfl

/-- Every entry of the first output array is in some point's block. -/
theorem cover_q (i : S2x16x2048x64.Idx) : ∃ t : Fin cfg0.N, (cfg0.win 8).flush t = true ∧ i ∈ ((cfg0.win 8).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨(i 0).val * 8 + (i 2).val / 256, by show _ < 16; omega⟩, flush0_8 _, ?_⟩
  rw [mem_blk_q]
  obtain ⟨-, -, -, -, -, -, -, -, -, -, -, -, e0, e1, e2, e3, -⟩ := idx_facts ⟨(i 0).val * 8 + (i 2).val / 256, by show _ < 16; omega⟩
  intro a
  match a with
  | ⟨0, _⟩ => show win0_8.index _ (0 : Fin 4) * 1 ≤ (i 0).val ∧ (i 0).val < win0_8.index _ (0 : Fin 4) * 1 + 1; rw [e0]; show ((i 0).val * 8 + (i 2).val / 256) / 8 * 1 ≤ _ ∧ _ < ((i 0).val * 8 + (i 2).val / 256) / 8 * 1 + 1; omega
  | ⟨1, _⟩ => show win0_8.index _ (1 : Fin 4) * 16 ≤ (i 1).val ∧ (i 1).val < win0_8.index _ (1 : Fin 4) * 16 + 16; rw [e1]; omega
  | ⟨2, _⟩ => show win0_8.index _ (2 : Fin 4) * 256 ≤ (i 2).val ∧ (i 2).val < win0_8.index _ (2 : Fin 4) * 256 + 256; rw [e2]; show ((i 0).val * 8 + (i 2).val / 256) % 8 * 256 ≤ _ ∧ _ < ((i 0).val * 8 + (i 2).val / 256) % 8 * 256 + 256; omega
  | ⟨3, _⟩ => show win0_8.index _ (3 : Fin 4) * 64 ≤ (i 3).val ∧ (i 3).val < win0_8.index _ (3 : Fin 4) * 64 + 64; rw [e3]; omega

/-- THE FIRST OUTPUT ARRAY after the region, at batch `b`, head `h`, row `s`, position `d`. -/
theorem out_q (c : Dev nD) (b : Fin 2) (h : Fin 16) (s : Fin 2048) (d : Fin 64) (R : Fin 4096) (hR : R.val = b.val * 2048 + s.val) :
    ((dat0 V c).arrAt 8 cfg0.N : S2x16x2048x64.Idx → EReal) (ix4 b h s d)
      = projRow (fun k => (V c main_v0 : S4096x1024.Idx → EReal) (ix2 R k)) (fun k => (V c main_arg10 : S1024.Idx → EReal) (ix1 k))
          (fun k => (V c main_v2 : S1024x1024.Idx → EReal) (ix2 k (col h d))) ((V c main_arg3 : S1024.Idx → EReal) (ix1 (col h d))) := by
  refine (dat0 V c).arrAt_forall_of_cover 8
    (fun i v => ∀ (b : Fin 2) (h : Fin 16) (s : Fin 2048) (d : Fin 64) (R : Fin 4096), (i : S2x16x2048x64.Idx) = ix4 b h s d → R.val = b.val * 2048 + s.val →
      (v : EReal) = projRow (fun k => (V c main_v0 : S4096x1024.Idx → EReal) (ix2 R k)) (fun k => (V c main_arg10 : S1024.Idx → EReal) (ix1 k))
          (fun k => (V c main_v2 : S1024x1024.Idx → EReal) (ix2 k (col h d))) ((V c main_arg3 : S1024.Idx → EReal) (ix1 (col h d))))
    ?_ (cover_q) (ix4 b h s d) b h s d R rfl hR
  intro t _ y b h s d R hi hR
  obtain ⟨y0, y1, y2, y3, rfl⟩ : ∃ (y0 : Fin 1) (y1 : Fin 16) (y2 : Fin 256) (y3 : Fin 64), y = ix4 y0 y1 y2 y3 := ⟨y 0, y 1, y 2, y 3, eq_ix4 y⟩
  obtain ⟨-, -, -, -, -, -, -, -, -, -, -, -, e0, e1, e2, e3, -⟩ := idx_facts t
  have c0 : win0_8.index t (0 : Fin 4) * 1 + 1 * y0.val = b.val := congrArg Fin.val (congrFun hi 0)
  have c1 : win0_8.index t (1 : Fin 4) * 16 + 1 * y1.val = h.val := congrArg Fin.val (congrFun hi 1)
  have c2 : win0_8.index t (2 : Fin 4) * 256 + 1 * y2.val = s.val := congrArg Fin.val (congrFun hi 2)
  have c3 : win0_8.index t (3 : Fin 4) * 64 + 1 * y3.val = d.val := congrArg Fin.val (congrFun hi 3)
  have ht : t.val < 16 := t.isLt
  obtain rfl : y0 = 0 := Fin.ext (by omega)
  obtain rfl : y1 = h := Fin.ext (by omega)
  obtain rfl : y3 = d := Fin.ext (by omega)
  show (dat0 V c).flushed 8 t (ix4 (0 : Fin 1) y1 y2 y3) = _
  rw [flushed_q, Cert.KernelIdeal.Body0.pay_q]
  simp only [read_x V c t y2 _ R (by omega), read_g, read_w2, read_b3]

/-- The second weight block is the whole second weight matrix. -/
theorem read_w4 (c : Dev nD) (t : Fin cfg0.N) (k e : Fin 1024) :
    iblk0 V c 4 t (ix2 k e) = (V c main_v4 : S1024x1024.Idx → EReal) (ix2 k e) := by
  show (V c main_v4 : S1024x1024.Idx → EReal) (((cfg0.win 4).blk t).view.emb (ix2 k e)) = _
  refine congrArg _ (funext fun a => Fin.ext ?_)
  obtain ⟨-, -, -, -, -, -, e3, e4, -⟩ := idx_facts t
  match a with
  | ⟨0, _⟩ => show win0_4.index t (0 : Fin 2) * 1024 + 1 * k.val = k.val; omega
  | ⟨1, _⟩ => show win0_4.index t (1 : Fin 2) * 1024 + 1 * e.val = e.val; omega

/-- The second bias block is the whole second bias vector. -/
theorem read_b5 (c : Dev nD) (t : Fin cfg0.N) (k : Fin 1024) :
    iblk0 V c 5 t (ix1 k) = (V c main_arg5 : S1024.Idx → EReal) (ix1 k) := by
  show (V c main_arg5 : S1024.Idx → EReal) (((cfg0.win 5).blk t).view.emb (ix1 k)) = _
  refine congrArg _ (funext fun a => Fin.ext ?_)
  obtain ⟨-, -, -, -, -, -, -, -, e5, -⟩ := idx_facts t
  match a with
  | ⟨0, _⟩ => show win0_5.index t (0 : Fin 1) * 1024 + 1 * k.val = k.val; omega

/-! ## The second output -/

/-- What point `t` writes back to the second output is the body's second payload of the point's blocks. -/
theorem flushed_k (c : Dev nD) (t : Fin cfg0.N) (y : S1x16x256x64.Idx) :
    (dat0 V c).flushed 9 t y = k0_pay1 (k0_pay5 (iblk0 V c 0 t) (iblk0 V c 1 t) (iblk0 V c 4 t) (iblk0 V c 5 t)) y := by
  show (cfg0.win 9).cut (grid0.coords t) ((dat0 V c).after 9 t) y = _
  rw [after0_9]
  unfold out0_9
  rw [View.canon_unit_zero hz4]
  simp only [View.ld_unit_zero (S := S256x1024) hz2, View.ld_unit_zero (S := S1024) hz1, View.ld_unit_zero (S := S1024x1024) hz2]
  rfl

/-- An index of an output array is in point `t`'s block iff each coordinate is in the block's range on its axis. -/
theorem mem_blk_k (t : Fin cfg0.N) (i : S2x16x2048x64.Idx) :
    i ∈ ((cfg0.win 9).blk t).view.set ↔ ∀ a : Fin 4, win0_9.index t a * S1x16x256x64.size a ≤ (i a).val ∧ (i a).val < win0_9.index t a * S1x16x256x64.size a + S1x16x256x64.size a := by
  show i ∈ ((View.whole main_v9_1).slice (win0_9.rect t)).set ↔ _
  rw [View.set_slice_whole, Rect.mem_set_unit]
  exact Iff.rfl

/-- Every entry of the second output array is in some point's block. -/
theorem cover_k (i : S2x16x2048x64.Idx) : ∃ t : Fin cfg0.N, (cfg0.win 9).flush t = true ∧ i ∈ ((cfg0.win 9).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨(i 0).val * 8 + (i 2).val / 256, by show _ < 16; omega⟩, flush0_9 _, ?_⟩
  rw [mem_blk_k]
  obtain ⟨-, -, -, -, -, -, -, -, -, -, -, -, -, -, -, -, e0, e1, e2, e3, -⟩ := idx_facts ⟨(i 0).val * 8 + (i 2).val / 256, by show _ < 16; omega⟩
  intro a
  match a with
  | ⟨0, _⟩ => show win0_9.index _ (0 : Fin 4) * 1 ≤ (i 0).val ∧ (i 0).val < win0_9.index _ (0 : Fin 4) * 1 + 1; rw [e0]; show ((i 0).val * 8 + (i 2).val / 256) / 8 * 1 ≤ _ ∧ _ < ((i 0).val * 8 + (i 2).val / 256) / 8 * 1 + 1; omega
  | ⟨1, _⟩ => show win0_9.index _ (1 : Fin 4) * 16 ≤ (i 1).val ∧ (i 1).val < win0_9.index _ (1 : Fin 4) * 16 + 16; rw [e1]; omega
  | ⟨2, _⟩ => show win0_9.index _ (2 : Fin 4) * 256 ≤ (i 2).val ∧ (i 2).val < win0_9.index _ (2 : Fin 4) * 256 + 256; rw [e2]; show ((i 0).val * 8 + (i 2).val / 256) % 8 * 256 ≤ _ ∧ _ < ((i 0).val * 8 + (i 2).val / 256) % 8 * 256 + 256; omega
  | ⟨3, _⟩ => show win0_9.index _ (3 : Fin 4) * 64 ≤ (i 3).val ∧ (i 3).val < win0_9.index _ (3 : Fin 4) * 64 + 64; rw [e3]; omega

/-- THE SECOND OUTPUT ARRAY after the region, at batch `b`, head `h`, row `s`, position `d`. -/
theorem out_k (c : Dev nD) (b : Fin 2) (h : Fin 16) (s : Fin 2048) (d : Fin 64) (R : Fin 4096) (hR : R.val = b.val * 2048 + s.val) :
    ((dat0 V c).arrAt 9 cfg0.N : S2x16x2048x64.Idx → EReal) (ix4 b h s d)
      = projRow (fun k => (V c main_v0 : S4096x1024.Idx → EReal) (ix2 R k)) (fun k => (V c main_arg10 : S1024.Idx → EReal) (ix1 k))
          (fun k => (V c main_v4 : S1024x1024.Idx → EReal) (ix2 k (col h d))) ((V c main_arg5 : S1024.Idx → EReal) (ix1 (col h d))) := by
  refine (dat0 V c).arrAt_forall_of_cover 9
    (fun i v => ∀ (b : Fin 2) (h : Fin 16) (s : Fin 2048) (d : Fin 64) (R : Fin 4096), (i : S2x16x2048x64.Idx) = ix4 b h s d → R.val = b.val * 2048 + s.val →
      (v : EReal) = projRow (fun k => (V c main_v0 : S4096x1024.Idx → EReal) (ix2 R k)) (fun k => (V c main_arg10 : S1024.Idx → EReal) (ix1 k))
          (fun k => (V c main_v4 : S1024x1024.Idx → EReal) (ix2 k (col h d))) ((V c main_arg5 : S1024.Idx → EReal) (ix1 (col h d))))
    ?_ (cover_k) (ix4 b h s d) b h s d R rfl hR
  intro t _ y b h s d R hi hR
  obtain ⟨y0, y1, y2, y3, rfl⟩ : ∃ (y0 : Fin 1) (y1 : Fin 16) (y2 : Fin 256) (y3 : Fin 64), y = ix4 y0 y1 y2 y3 := ⟨y 0, y 1, y 2, y 3, eq_ix4 y⟩
  obtain ⟨-, -, -, -, -, -, -, -, -, -, -, -, -, -, -, -, e0, e1, e2, e3, -⟩ := idx_facts t
  have c0 : win0_9.index t (0 : Fin 4) * 1 + 1 * y0.val = b.val := congrArg Fin.val (congrFun hi 0)
  have c1 : win0_9.index t (1 : Fin 4) * 16 + 1 * y1.val = h.val := congrArg Fin.val (congrFun hi 1)
  have c2 : win0_9.index t (2 : Fin 4) * 256 + 1 * y2.val = s.val := congrArg Fin.val (congrFun hi 2)
  have c3 : win0_9.index t (3 : Fin 4) * 64 + 1 * y3.val = d.val := congrArg Fin.val (congrFun hi 3)
  have ht : t.val < 16 := t.isLt
  obtain rfl : y0 = 0 := Fin.ext (by omega)
  obtain rfl : y1 = h := Fin.ext (by omega)
  obtain rfl : y3 = d := Fin.ext (by omega)
  show (dat0 V c).flushed 9 t (ix4 (0 : Fin 1) y1 y2 y3) = _
  rw [flushed_k, Cert.KernelIdeal.Body0.pay_k]
  simp only [read_x V c t y2 _ R (by omega), read_g, read_w4, read_b5]

/-- The third weight block is the whole third weight matrix. -/
theorem read_w6 (c : Dev nD) (t : Fin cfg0.N) (k e : Fin 1024) :
    iblk0 V c 6 t (ix2 k e) = (V c main_v6 : S1024x1024.Idx → EReal) (ix2 k e) := by
  show (V c main_v6 : S1024x1024.Idx → EReal) (((cfg0.win 6).blk t).view.emb (ix2 k e)) = _
  refine congrArg _ (funext fun a => Fin.ext ?_)
  obtain ⟨-, -, -, -, -, -, -, -, -, e3, e4, -⟩ := idx_facts t
  match a with
  | ⟨0, _⟩ => show win0_6.index t (0 : Fin 2) * 1024 + 1 * k.val = k.val; omega
  | ⟨1, _⟩ => show win0_6.index t (1 : Fin 2) * 1024 + 1 * e.val = e.val; omega

/-- The third bias block is the whole third bias vector. -/
theorem read_b7 (c : Dev nD) (t : Fin cfg0.N) (k : Fin 1024) :
    iblk0 V c 7 t (ix1 k) = (V c main_arg7 : S1024.Idx → EReal) (ix1 k) := by
  show (V c main_arg7 : S1024.Idx → EReal) (((cfg0.win 7).blk t).view.emb (ix1 k)) = _
  refine congrArg _ (funext fun a => Fin.ext ?_)
  obtain ⟨-, -, -, -, -, -, -, -, -, -, -, e5, -⟩ := idx_facts t
  match a with
  | ⟨0, _⟩ => show win0_7.index t (0 : Fin 1) * 1024 + 1 * k.val = k.val; omega

/-! ## The third output -/

/-- What point `t` writes back to the third output is the body's third payload of the point's blocks. -/
theorem flushed_v (c : Dev nD) (t : Fin cfg0.N) (y : S1x16x256x64.Idx) :
    (dat0 V c).flushed 10 t y = k0_pay2 (k0_pay3 (iblk0 V c 0 t) (iblk0 V c 1 t)) (iblk0 V c 6 t) (iblk0 V c 7 t) y := by
  show (cfg0.win 10).cut (grid0.coords t) ((dat0 V c).after 10 t) y = _
  rw [after0_10]
  unfold out0_10
  rw [View.canon_unit_zero hz4]
  simp only [View.ld_unit_zero (S := S256x1024) hz2, View.ld_unit_zero (S := S1024) hz1, View.ld_unit_zero (S := S1024x1024) hz2]
  rfl

/-- An index of an output array is in point `t`'s block iff each coordinate is in the block's range on its axis. -/
theorem mem_blk_v (t : Fin cfg0.N) (i : S2x16x2048x64.Idx) :
    i ∈ ((cfg0.win 10).blk t).view.set ↔ ∀ a : Fin 4, win0_10.index t a * S1x16x256x64.size a ≤ (i a).val ∧ (i a).val < win0_10.index t a * S1x16x256x64.size a + S1x16x256x64.size a := by
  show i ∈ ((View.whole main_v9_2).slice (win0_10.rect t)).set ↔ _
  rw [View.set_slice_whole, Rect.mem_set_unit]
  exact Iff.rfl

/-- Every entry of the third output array is in some point's block. -/
theorem cover_v (i : S2x16x2048x64.Idx) : ∃ t : Fin cfg0.N, (cfg0.win 10).flush t = true ∧ i ∈ ((cfg0.win 10).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨(i 0).val * 8 + (i 2).val / 256, by show _ < 16; omega⟩, flush0_10 _, ?_⟩
  rw [mem_blk_v]
  obtain ⟨-, -, -, -, -, -, -, -, -, -, -, -, -, -, -, -, -, -, -, -, e0, e1, e2, e3⟩ := idx_facts ⟨(i 0).val * 8 + (i 2).val / 256, by show _ < 16; omega⟩
  intro a
  match a with
  | ⟨0, _⟩ => show win0_10.index _ (0 : Fin 4) * 1 ≤ (i 0).val ∧ (i 0).val < win0_10.index _ (0 : Fin 4) * 1 + 1; rw [e0]; show ((i 0).val * 8 + (i 2).val / 256) / 8 * 1 ≤ _ ∧ _ < ((i 0).val * 8 + (i 2).val / 256) / 8 * 1 + 1; omega
  | ⟨1, _⟩ => show win0_10.index _ (1 : Fin 4) * 16 ≤ (i 1).val ∧ (i 1).val < win0_10.index _ (1 : Fin 4) * 16 + 16; rw [e1]; omega
  | ⟨2, _⟩ => show win0_10.index _ (2 : Fin 4) * 256 ≤ (i 2).val ∧ (i 2).val < win0_10.index _ (2 : Fin 4) * 256 + 256; rw [e2]; show ((i 0).val * 8 + (i 2).val / 256) % 8 * 256 ≤ _ ∧ _ < ((i 0).val * 8 + (i 2).val / 256) % 8 * 256 + 256; omega
  | ⟨3, _⟩ => show win0_10.index _ (3 : Fin 4) * 64 ≤ (i 3).val ∧ (i 3).val < win0_10.index _ (3 : Fin 4) * 64 + 64; rw [e3]; omega

/-- THE THIRD OUTPUT ARRAY after the region, at batch `b`, head `h`, row `s`, position `d`. -/
theorem out_v (c : Dev nD) (b : Fin 2) (h : Fin 16) (s : Fin 2048) (d : Fin 64) (R : Fin 4096) (hR : R.val = b.val * 2048 + s.val) :
    ((dat0 V c).arrAt 10 cfg0.N : S2x16x2048x64.Idx → EReal) (ix4 b h s d)
      = projRow (fun k => (V c main_v0 : S4096x1024.Idx → EReal) (ix2 R k)) (fun k => (V c main_arg10 : S1024.Idx → EReal) (ix1 k))
          (fun k => (V c main_v6 : S1024x1024.Idx → EReal) (ix2 k (col h d))) ((V c main_arg7 : S1024.Idx → EReal) (ix1 (col h d))) := by
  refine (dat0 V c).arrAt_forall_of_cover 10
    (fun i v => ∀ (b : Fin 2) (h : Fin 16) (s : Fin 2048) (d : Fin 64) (R : Fin 4096), (i : S2x16x2048x64.Idx) = ix4 b h s d → R.val = b.val * 2048 + s.val →
      (v : EReal) = projRow (fun k => (V c main_v0 : S4096x1024.Idx → EReal) (ix2 R k)) (fun k => (V c main_arg10 : S1024.Idx → EReal) (ix1 k))
          (fun k => (V c main_v6 : S1024x1024.Idx → EReal) (ix2 k (col h d))) ((V c main_arg7 : S1024.Idx → EReal) (ix1 (col h d))))
    ?_ (cover_v) (ix4 b h s d) b h s d R rfl hR
  intro t _ y b h s d R hi hR
  obtain ⟨y0, y1, y2, y3, rfl⟩ : ∃ (y0 : Fin 1) (y1 : Fin 16) (y2 : Fin 256) (y3 : Fin 64), y = ix4 y0 y1 y2 y3 := ⟨y 0, y 1, y 2, y 3, eq_ix4 y⟩
  obtain ⟨-, -, -, -, -, -, -, -, -, -, -, -, -, -, -, -, -, -, -, -, e0, e1, e2, e3⟩ := idx_facts t
  have c0 : win0_10.index t (0 : Fin 4) * 1 + 1 * y0.val = b.val := congrArg Fin.val (congrFun hi 0)
  have c1 : win0_10.index t (1 : Fin 4) * 16 + 1 * y1.val = h.val := congrArg Fin.val (congrFun hi 1)
  have c2 : win0_10.index t (2 : Fin 4) * 256 + 1 * y2.val = s.val := congrArg Fin.val (congrFun hi 2)
  have c3 : win0_10.index t (3 : Fin 4) * 64 + 1 * y3.val = d.val := congrArg Fin.val (congrFun hi 3)
  have ht : t.val < 16 := t.isLt
  obtain rfl : y0 = 0 := Fin.ext (by omega)
  obtain rfl : y1 = h := Fin.ext (by omega)
  obtain rfl : y3 = d := Fin.ext (by omega)
  show (dat0 V c).flushed 10 t (ix4 (0 : Fin 1) y1 y2 y3) = _
  rw [flushed_v, Cert.KernelIdeal.Body0.pay_v]
  simp only [read_x V c t y2 _ R (by omega), read_g, read_w6, read_b7]

end Cert.KernelIdeal.Region0

end
-- ==== Proof.LibTransposedDot.lean ====
/-
  A matrix product against a transposed right operand, read at an index.

  For the dimension numbers of an `M×K` by `N×K` product (`DotDims.transposedRhs`: both operands contracted on
  their second axis, no batch axis), the sum over the contraction index of the operands' products at result index
  `(i, j)` is `Σ_k l[i,k]·r[j,k]` over `k : Fin K` — a row of the left operand against a row of the right one.
  Stated for the sum itself, and for a kernel's matrix product into a zero accumulator and a host's `dot_general`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of such a product has one axis. -/
theorem transposedRhs_contr_rank (M K N : Nat) : (DotDims.transposedRhs M K N).contr.rank = 1 := rfl

/-- The left operand's index at result `(i, j)` and contraction position `k` is `(i, k)`. -/
theorem transposedRhs_lhsIdx (M K N : Nat) (i : Fin M) (j : Fin N) (k : Fin K) :
    (DotDims.transposedRhs M K N).lhsIdx (ix2 i j) ((contrEquiv1 (DotDims.transposedRhs M K N) K rfl rfl).symm k) = ix2 i k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- The right operand's index at result `(i, j)` and contraction position `k` is `(j, k)`. -/
theorem transposedRhs_rhsIdx (M K N : Nat) (i : Fin M) (j : Fin N) (k : Fin K) :
    (DotDims.transposedRhs M K N).rhsIdx (ix2 i j) ((contrEquiv1 (DotDims.transposedRhs M K N) K rfl rfl).symm k) = ix2 j k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- THE PRODUCT'S SUM at `(i, j)`: over `k : Fin K`, of `l[i,k]·r[j,k]`. -/
theorem transposedRhs_sum (M K N : Nat) (l : (⟨2, ![M, K]⟩ : Shape).Idx → EReal) (r : (⟨2, ![N, K]⟩ : Shape).Idx → EReal)
    (i : Fin M) (j : Fin N) :
    (∑ q : (DotDims.transposedRhs M K N).contr.Idx,
        l ((DotDims.transposedRhs M K N).lhsIdx (ix2 i j) q) * r ((DotDims.transposedRhs M K N).rhsIdx (ix2 i j) q))
      = ∑ k : Fin K, l (ix2 i k) * r (ix2 j k) := by
  rw [← Equiv.sum_comp (contrEquiv1 (DotDims.transposedRhs M K N) K rfl rfl).symm]
  exact Finset.sum_congr rfl fun k _ => by rw [transposedRhs_lhsIdx, transposedRhs_rhsIdx]

/-- A kernel's matrix product with these dimension numbers into the zero splat, at the ideal values, read at `(i, j)`. -/
theorem transposedRhs_matmul_zero_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    matmul (DotDims.transposedRhs M K N) prec l r (constant ⟨2, ![M, N]⟩ .f32 0x00000000#32) (ix2 i j)
      = ∑ k : Fin K, l (ix2 i k) * r (ix2 j k) :=
  (Ideal.matmul_constant_zero_apply (DotDims.transposedRhs M K N) prec l r (ix2 i j)).trans (transposedRhs_sum M K N l r i j)

/-- A host `dot_general` with these dimension numbers, at the ideal values, read at `(i, j)`. -/
theorem transposedRhs_dotGeneral_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    Host.dotGeneral (DotDims.transposedRhs M K N) prec l r (ix2 i j) = ∑ k : Fin K, l (ix2 i k) * r (ix2 j k) :=
  (Ideal.dotGeneral_apply (DotDims.transposedRhs M K N) prec _ l r (ix2 i j)).trans (transposedRhs_sum M K N l r i j)

end Cert.Lib

end
-- ==== Proof.Body1.lean ====
/-
  What the attention kernel's body stores, read at an index.

  A block holds 512 query rows of one head, all 2048 key rows and value rows of that head, and the 512×2048
  window of the mask.  The body forms the scaled scores, puts the masked value where the mask is zero,
  takes the softmax along each row, stores the weights, and multiplies them into the value rows.
-/
import proofs.«104772_j69398081569166_2_alg».proof.Proof.Gen.KernelIdeal.Skeleton
import proofs.«104772_j69398081569166_2_alg».proof.Proof.LibPlainDot
import proofs.«104772_j69398081569166_2_alg».proof.Proof.LibTransposedDot
import proofs.«104772_j69398081569166_2_alg».proof.Proof.LibKeepdims
import proofs.«104772_j69398081569166_2_alg».proof.Proof.LibRowReduce
import proofs.«104772_j69398081569166_2_alg».proof.Proof.LibHeadLayout
import proofs.«104772_j69398081569166_2_alg».proof.Proof.Spec
import Idealize.ShloMosaic.Lib.ValueLayout

noncomputable section

namespace Cert.KernelIdeal.Body1

open Cert.KernelIdeal Cert.KernelIdeal.Gen
open Idealize.ShloMosaic Idealize.ShloMosaic.ValueIdx Cert.Spec

theorem dot_qk : dot_S512x64_S2048x64_S512x2048_1_1_0_0_n_n = DotDims.transposedRhs 512 64 2048 := rfl
theorem dot_av : dot_S512x2048_S2048x64_S512x64_1_0_0_1_n_n = DotDims.plain 512 2048 64 := rfl

/-- The masked, scaled scores of the block at `(r, k)`. -/
theorem score_apply (q0 : Vec Ideal S1x512x64 .bf16) (k0 : Vec Ideal S1x2048x64 .bf16) (m0 : Vec Ideal S1x1x512x2048 .i32)
    (h1 : S1x512x64.ShapeCasts S512x64) (h2 : S1x2048x64.ShapeCasts S2048x64) (h3 : S1x1x512x2048.ShapeCasts S512x2048)
    (r : Fin 512) (k : Fin 2048) :
    select (cmpi .eq (shapeCast S512x2048 m0 h3 : IVec S512x2048 32) (broadcast S512x2048 0#32))
        (broadcast S512x2048 (Scalar.ofBits (F := Ideal) .f32 0xCE6E6B28#32))
        (mulf (matmul dot_S512x64_S2048x64_S512x2048_1_1_0_0_n_n none (shapeCast S512x64 q0 h1 : FVec Ideal S512x64 .bf16)
            (shapeCast S2048x64 k0 h2 : FVec Ideal S2048x64 .bf16) (constant S512x2048 .f32 0x00000000#32))
          (broadcast S512x2048 (Scalar.ofBits (F := Ideal) .f32 0x3E000000#32))) (ix2 r k)
      = score (fun d => q0 (ix3 (0 : Fin 1) r d)) (fun d => k0 (ix3 (0 : Fin 1) k d)) (m0 (ix4 (0 : Fin 1) (0 : Fin 1) r k)) := by
  show Scalar.select (IntOp.cmpi .eq (shapeCast S512x2048 m0 h3 (ix2 r k)) 0#32) masked
      (matmul dot_S512x64_S2048x64_S512x2048_1_1_0_0_n_n none (shapeCast S512x64 q0 h1 : FVec Ideal S512x64 .bf16)
            (shapeCast S2048x64 k0 h2 : FVec Ideal S2048x64 .bf16) (constant S512x2048 .f32 0x00000000#32) (ix2 r k) * eighth) = _
  rw [Cert.LibHeadLayout.shapeCast_11ab_ab_apply, dot_qk, Cert.Lib.transposedRhs_matmul_zero_apply]
  simp only [shapeCast_1ab_ab_apply]
  rfl

/-- The softmax along the rows of any 512×2048 block of scores, at `(r, k)`. -/
theorem softmax_apply (S : FVec Ideal S512x2048 .f32) (h1 : S512x2048.Reduces [1] S512) (h2 : S512.ShapeCasts S512x1)
    (h3 : S512x1.Broadcasts S512x2048) (hφ) (hm) (ha) (r : Fin 512) (k : Fin 2048) :
    divf (exp (subf S (broadcastTo S512x2048 (shapeCast S512x1 (multiReduction .maximumf [1] S512 S 0xFF800000#32 h1 hφ hm) h2) h3)))
        (broadcastTo S512x2048 (shapeCast S512x1 (multiReduction .add [1] S512
          (exp (subf S (broadcastTo S512x2048 (shapeCast S512x1 (multiReduction .maximumf [1] S512 S 0xFF800000#32 h1 hφ hm) h2) h3))) 0x00000000#32 h1 hφ ha) h2) h3) (ix2 r k)
      = softmax (fun k' => S (ix2 r k')) k := by
  have hM : ∀ k' : Fin 2048, broadcastTo S512x2048 (shapeCast S512x1 (multiReduction .maximumf [1] S512 S 0xFF800000#32 h1 hφ hm) h2) h3 (ix2 r k')
      = (Finset.univ : Finset (Fin 2048)).fold max ninf (fun k'' => S (ix2 r k'')) := fun k' => by
    rw [Cert.Lib.broadcastTo_a1_ab_apply, Cert.Lib.shapeCast_a_a1_apply, Cert.Lib.multiReduction_max_row]
    rfl
  show Ideal.div (Ideal.exp (S (ix2 r k) - _)) (broadcastTo S512x2048 _ h3 (ix2 r k)) = _
  rw [hM, Cert.Lib.broadcastTo_a1_ab_apply, Cert.Lib.shapeCast_a_a1_apply, Cert.Lib.multiReduction_add_row]
  unfold softmax
  refine congrArg _ (Finset.sum_congr rfl fun k' _ => ?_)
  show Ideal.exp (S (ix2 r k') - _) = _
  rw [hM]

/-- The attention weights of the block at `(r, k)`. -/
theorem attn_apply (q0 : Vec Ideal S1x512x64 .bf16) (k0 : Vec Ideal S1x2048x64 .bf16) (m0 : Vec Ideal S1x1x512x2048 .i32)
    (r : Fin 512) (k : Fin 2048) :
    k1_pay2 (F := Ideal) q0 k0 m0 (ix2 r k)
      = attnRow (fun d => q0 (ix3 (0 : Fin 1) r d)) (fun k' d => k0 (ix3 (0 : Fin 1) k' d)) (fun k' => m0 (ix4 (0 : Fin 1) (0 : Fin 1) r k')) k := by
  unfold k1_pay2
  refine (softmax_apply _ _ _ _ _ _ _ r k).trans ?_
  unfold attnRow
  exact congrArg (fun s => softmax s k) (funext fun k' => score_apply q0 k0 m0 _ _ _ r k')

/-- The stored weights at `(0, r, k)`. -/
theorem weights_apply (q0 : Vec Ideal S1x512x64 .bf16) (k0 : Vec Ideal S1x2048x64 .bf16) (m0 : Vec Ideal S1x1x512x2048 .i32)
    (r : Fin 512) (k : Fin 2048) :
    k1_pay3 (F := Ideal) q0 k0 m0 (ix3 (0 : Fin 1) r k)
      = attnRow (fun d => q0 (ix3 (0 : Fin 1) r d)) (fun k' d => k0 (ix3 (0 : Fin 1) k' d)) (fun k' => m0 (ix4 (0 : Fin 1) (0 : Fin 1) r k')) k := by
  unfold k1_pay3
  rw [shapeCast_ab_1ab_apply]
  exact attn_apply q0 k0 m0 r k

/-- The stored context at `(0, r, d)`. -/
theorem ctx_apply (q0 : Vec Ideal S1x512x64 .bf16) (k0 v0 : Vec Ideal S1x2048x64 .bf16) (m0 : Vec Ideal S1x1x512x2048 .i32)
    (r : Fin 512) (d : Fin 64) :
    k1_pay1 (F := Ideal) (k1_pay4 q0 k0 v0 m0) (ix3 (0 : Fin 1) r d)
      = ctxRow (attnRow (fun d' => q0 (ix3 (0 : Fin 1) r d')) (fun k' d' => k0 (ix3 (0 : Fin 1) k' d')) (fun k' => m0 (ix4 (0 : Fin 1) (0 : Fin 1) r k')))
          (fun k' => v0 (ix3 (0 : Fin 1) k' d)) := by
  unfold k1_pay1 k1_pay4
  rw [shapeCast_ab_1ab_apply, truncf_apply, dot_av, Cert.Lib.plain_matmul_zero_apply]
  unfold ctxRow
  refine Finset.sum_congr rfl fun k' _ => ?_
  rw [truncf_apply, attn_apply, shapeCast_1ab_ab_apply]

end Cert.KernelIdeal.Body1

end
-- ==== Proof.Region1.lean ====
/-
  The attention kernel's two output arrays after its region, entry by entry.

  The grid has 4 × 32 points: a tile of 512 query rows and one of the 32 batch-heads.  Each point reads its
  512 query rows, all 2048 key and value rows of its batch-head and the mask's window for its query rows, and
  writes its 512 rows of attention weights and of context.  The blocks tile each output array.
-/
import proofs.«104772_j69398081569166_2_alg».proof.Proof.Gen.KernelIdeal.Frame
import proofs.«104772_j69398081569166_2_alg».proof.Proof.Body1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: point `t` is query tile `t / 32` of batch-head `t % 32`. -/
theorem idx_facts : ∀ t : Fin cfg1.N,
    win1_0.index t (0 : Fin 3) = t.val % 32 ∧ win1_0.index t (1 : Fin 3) = t.val / 32 ∧ win1_0.index t (2 : Fin 3) = 0
    ∧ win1_1.index t (0 : Fin 3) = t.val % 32 ∧ win1_1.index t (1 : Fin 3) = 0 ∧ win1_1.index t (2 : Fin 3) = 0
    ∧ win1_2.index t (0 : Fin 3) = t.val % 32 ∧ win1_2.index t (1 : Fin 3) = 0 ∧ win1_2.index t (2 : Fin 3) = 0
    ∧ win1_3.index t (0 : Fin 4) = 0 ∧ win1_3.index t (1 : Fin 4) = 0 ∧ win1_3.index t (2 : Fin 4) = t.val / 32 ∧ win1_3.index t (3 : Fin 4) = 0
    ∧ win1_4.index t (0 : Fin 3) = t.val % 32 ∧ win1_4.index t (1 : Fin 3) = t.val / 32 ∧ win1_4.index t (2 : Fin 3) = 0
    ∧ win1_5.index t (0 : Fin 3) = t.val % 32 ∧ win1_5.index t (1 : Fin 3) = t.val / 32 ∧ win1_5.index t (2 : Fin 3) = 0 :=
  (by decide +kernel : ∀ t : Fin grid1.N, _)

/-! ## The input blocks, read where they sit in their arrays -/

/-- Row `r` of the query block at point `t` is row `512·(t / 32) + r` of batch-head `t % 32`. -/
theorem read_q (c : Dev nD) (t : Fin cfg1.N) (r : Fin 512) (d : Fin 64) (bh : Fin 32) (q : Fin 2048)
    (hbh : bh.val = t.val % 32) (hq : q.val = t.val / 32 * 512 + r.val) :
    iblk1 V c 0 t (ix3 (0 : Fin 1) r d) = (V c main_v10 : S32x2048x64.Idx → EReal) (ix3 bh q d) := by
  show (V c main_v10 : S32x2048x64.Idx → EReal) (((cfg1.win 0).blk t).view.emb (ix3 (0 : Fin 1) r d)) = _
  refine congrArg _ (funext fun a => Fin.ext ?_)
  obtain ⟨e0, e1, e2, -⟩ := idx_facts t
  match a with
  | ⟨0, _⟩ => show win1_0.index t (0 : Fin 3) * 1 + 1 * 0 = bh.val; omega
  | ⟨1, _⟩ => show win1_0.index t (1 : Fin 3) * 512 + 1 * r.val = q.val; omega
  | ⟨2, _⟩ => show win1_0.index t (2 : Fin 3) * 64 + 1 * d.val = d.val; omega

/-- The key block at point `t` is all the rows of batch-head `t % 32`. -/
theorem read_k (c : Dev nD) (t : Fin cfg1.N) (k : Fin 2048) (d : Fin 64) (bh : Fin 32) (hbh : bh.val = t.val % 32) :
    iblk1 V c 1 t (ix3 (0 : Fin 1) k d) = (V c main_v11 : S32x2048x64.Idx → EReal) (ix3 bh k d) := by
  show (V c main_v11 : S32x2048x64.Idx → EReal) (((cfg1.win 1).blk t).view.emb (ix3 (0 : Fin 1) k d)) = _
  refine congrArg _ (funext fun a => Fin.ext ?_)
  obtain ⟨-, -, -, e0, e1, e2, -⟩ := idx_facts t
  match a with
  | ⟨0, _⟩ => show win1_1.index t (0 : Fin 3) * 1 + 1 * 0 = bh.val; omega
  | ⟨1, _⟩ => show win1_1.index t (1 : Fin 3) * 2048 + 1 * k.val = k.val; omega
  | ⟨2, _⟩ => show win1_1.index t (2 : Fin 3) * 64 + 1 * d.val = d.val; omega

/-- The value block at point `t` is all the rows of batch-head `t % 32`. -/
theorem read_v (c : Dev nD) (t : Fin cfg1.N) (k : Fin 2048) (d : Fin 64) (bh : Fin 32) (hbh : bh.val = t.val % 32) :
    iblk1 V c 2 t (ix3 (0 : Fin 1) k d) = (V c main_v12 : S32x2048x64.Idx → EReal) (ix3 bh k d) := by
  show (V c main_v12 : S32x2048x64.Idx → EReal) (((cfg1.win 2).blk t).view.emb (ix3 (0 : Fin 1) k d)) = _
  refine congrArg _ (funext fun a => Fin.ext ?_)
  obtain ⟨-, -, -, -, -, -, e0, e1, e2, -⟩ := idx_facts t
  match a with
  | ⟨0, _⟩ => show win1_2.index t (0 : Fin 3) * 1 + 1 * 0 = bh.val; omega
  | ⟨1, _⟩ => show win1_2.index t (1 : Fin 3) * 2048 + 1 * k.val = k.val; omega
  | ⟨2, _⟩ => show win1_2.index t (2 : Fin 3) * 64 + 1 * d.val = d.val; omega

/-- Row `r` of the mask block at point `t` is the mask's row `512·(t / 32) + r`. -/
theorem read_m (c : Dev nD) (t : Fin cfg1.N) (r : Fin 512) (k : Fin 2048) (q : Fin 2048) (hq : q.val = t.val / 32 * 512 + r.val) :
    iblk1 V c 3 t (ix4 (0 : Fin 1) (0 : Fin 1) r k) = (V c main_arg1 : S1x1x2048x2048.Idx → BitVec 32) (ix4 (0 : Fin 1) (0 : Fin 1) q k) := by
  show (V c main_arg1 : S1x1x2048x2048.Idx → BitVec 32) (((cfg1.win 3).blk t).view.emb (ix4 (0 : Fin 1) (0 : Fin 1) r k)) = _
  refine congrArg _ (funext fun a => Fin.ext ?_)
  obtain ⟨-, -, -, -, -, -, -, -, -, e0, e1, e2, e3, -⟩ := idx_facts t
  match a with
  | ⟨0, _⟩ => show win1_3.index t (0 : Fin 4) * 1 + 1 * 0 = 0; omega
  | ⟨1, _⟩ => show win1_3.index t (1 : Fin 4) * 1 + 1 * 0 = 0; omega
  | ⟨2, _⟩ => show win1_3.index t (2 : Fin 4) * 512 + 1 * r.val = q.val; omega
  | ⟨3, _⟩ => show win1_3.index t (3 : Fin 4) * 2048 + 1 * k.val = k.val; omega

/-! ## The attention weights -/

/-- What point `t` writes back to the weights is the body's stored weights of the point's blocks. -/
theorem flushed_attn (c : Dev nD) (t : Fin cfg1.N) (y : S1x512x2048.Idx) :
    (dat1 V c).flushed 4 t y = k1_pay3 (iblk1 V c 0 t) (iblk1 V c 1 t) (iblk1 V c 3 t) y := by
  show (cfg1.win 4).cut (grid1.coords t) ((dat1 V c).after 4 t) y = _
  rw [after1_4]
  unfold out1_4
  rw [View.canon_unit_zero hz3]
  simp only [View.ld_unit_zero (S := S1x512x64) hz3, View.ld_unit_zero (S := S1x2048x64) hz3, View.ld_unit_zero (S := S1x1x512x2048) hz4]
  rfl

theorem mem_blk_attn (t : Fin cfg1.N) (i : S32x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v13_0).slice (win1_4.rect t)).set ↔ _
  rw [View.set_slice_whole, Rect.mem_set_unit]
  exact Iff.rfl

/-- Every entry of the weights array is in some point's block. -/
theorem cover_attn (i : S32x2048x2048.Idx) : ∃ t : Fin cfg1.N, (cfg1.win 4).flush t = true ∧ i ∈ ((cfg1.win 4).blk t).view.set := by
  have h0 : (i 0).val < 32 := (i 0).isLt
  have h1 : (i 1).val < 2048 := (i 1).isLt
  have h2 : (i 2).val < 2048 := (i 2).isLt
  refine ⟨⟨(i 1).val / 512 * 32 + (i 0).val, by show _ < 128; omega⟩, flush1_4 _, ?_⟩
  rw [mem_blk_attn]
  obtain ⟨-, -, -, -, -, -, -, -, -, -, -, -, -, e0, e1, e2, -⟩ := idx_facts ⟨(i 1).val / 512 * 32 + (i 0).val, by show _ < 128; omega⟩
  intro a
  match a with
  | ⟨0, _⟩ => show win1_4.index _ (0 : Fin 3) * 1 ≤ (i 0).val ∧ (i 0).val < win1_4.index _ (0 : Fin 3) * 1 + 1; rw [e0]; show ((i 1).val / 512 * 32 + (i 0).val) % 32 * 1 ≤ _ ∧ _ < ((i 1).val / 512 * 32 + (i 0).val) % 32 * 1 + 1; omega
  | ⟨1, _⟩ => show win1_4.index _ (1 : Fin 3) * 512 ≤ (i 1).val ∧ (i 1).val < win1_4.index _ (1 : Fin 3) * 512 + 512; rw [e1]; show ((i 1).val / 512 * 32 + (i 0).val) / 32 * 512 ≤ _ ∧ _ < ((i 1).val / 512 * 32 + (i 0).val) / 32 * 512 + 512; omega
  | ⟨2, _⟩ => show win1_4.index _ (2 : Fin 3) * 2048 ≤ (i 2).val ∧ (i 2).val < win1_4.index _ (2 : Fin 3) * 2048 + 2048; rw [e2]; omega

/-- THE WEIGHTS ARRAY after the region, at batch-head `bh`, query row `q`, key `k`. -/
theorem out_attn (c : Dev nD) (bh : Fin 32) (q : Fin 2048) (k : Fin 2048) :
    ((dat1 V c).arrAt 4 cfg1.N : S32x2048x2048.Idx → EReal) (ix3 bh q k)
      = attnRow (fun d => (V c main_v10 : S32x2048x64.Idx → EReal) (ix3 bh q d)) (fun k' d => (V c main_v11 : S32x2048x64.Idx → EReal) (ix3 bh k' d))
          (fun k' => (V c main_arg1 : S1x1x2048x2048.Idx → BitVec 32) (ix4 (0 : Fin 1) (0 : Fin 1) q k')) k := by
  refine (dat1 V c).arrAt_forall_of_cover 4
    (fun i v => ∀ (bh : Fin 32) (q k : Fin 2048), (i : S32x2048x2048.Idx) = ix3 bh q k →
      (v : EReal) = attnRow (fun d => (V c main_v10 : S32x2048x64.Idx → EReal) (ix3 bh q d)) (fun k' d => (V c main_v11 : S32x2048x64.Idx → EReal) (ix3 bh k' d))
          (fun k' => (V c main_arg1 : S1x1x2048x2048.Idx → BitVec 32) (ix4 (0 : Fin 1) (0 : Fin 1) q k')) k)
    ?_ (cover_attn) (ix3 bh q k) bh q k rfl
  intro t _ y bh q k hi
  obtain ⟨y0, y1, y2, rfl⟩ : ∃ (y0 : Fin 1) (y1 : Fin 512) (y2 : Fin 2048), y = ix3 y0 y1 y2 := ⟨y 0, y 1, y 2, eq_ix3 y⟩
  obtain ⟨-, -, -, -, -, -, -, -, -, -, -, -, -, e0, e1, e2, -⟩ := idx_facts t
  have c0 : win1_4.index t (0 : Fin 3) * 1 + 1 * y0.val = bh.val := congrArg Fin.val (congrFun hi 0)
  have c1 : win1_4.index t (1 : Fin 3) * 512 + 1 * y1.val = q.val := congrArg Fin.val (congrFun hi 1)
  have c2 : win1_4.index t (2 : Fin 3) * 2048 + 1 * y2.val = k.val := congrArg Fin.val (congrFun hi 2)
  have ht : t.val < 128 := t.isLt
  obtain rfl : y0 = 0 := Fin.ext (by omega)
  obtain rfl : y2 = k := Fin.ext (by omega)
  show (dat1 V c).flushed 4 t (ix3 (0 : Fin 1) y1 y2) = _
  rw [flushed_attn, Cert.KernelIdeal.Body1.weights_apply]
  simp only [read_q V c t y1 _ bh q (by omega) (by omega), read_k V c t _ _ bh (by omega), read_m V c t y1 _ q (by omega)]

/-! ## The context -/

/-- What point `t` writes back to the context is the body's stored context of the point's blocks. -/
theorem flushed_ctx (c : Dev nD) (t : Fin cfg1.N) (y : S1x512x64.Idx) :
    (dat1 V c).flushed 5 t y = k1_pay1 (k1_pay4 (iblk1 V c 0 t) (iblk1 V c 1 t) (iblk1 V c 2 t) (iblk1 V c 3 t)) y := by
  show (cfg1.win 5).cut (grid1.coords t) ((dat1 V c).after 5 t) y = _
  rw [after1_5]
  unfold out1_5
  rw [View.canon_unit_zero hz3]
  simp only [View.ld_unit_zero (S := S1x512x64) hz3, View.ld_unit_zero (S := S1x2048x64) hz3, View.ld_unit_zero (S := S1x1x512x2048) hz4]
  rfl

theorem mem_blk_ctx (t : Fin cfg1.N) (i : S32x2048x64.Idx) :
    i ∈ ((cfg1.win 5).blk t).view.set ↔ ∀ a : Fin 3, win1_5.index t a * S1x512x64.size a ≤ (i a).val ∧ (i a).val < win1_5.index t a * S1x512x64.size a + S1x512x64.size a := by
  show i ∈ ((View.whole main_v13_1).slice (win1_5.rect t)).set ↔ _
  rw [View.set_slice_whole, Rect.mem_set_unit]
  exact Iff.rfl

/-- Every entry of the context array is in some point's block. -/
theorem cover_ctx (i : S32x2048x64.Idx) : ∃ t : Fin cfg1.N, (cfg1.win 5).flush t = true ∧ i ∈ ((cfg1.win 5).blk t).view.set := by
  have h0 : (i 0).val < 32 := (i 0).isLt
  have h1 : (i 1).val < 2048 := (i 1).isLt
  have h2 : (i 2).val < 64 := (i 2).isLt
  refine ⟨⟨(i 1).val / 512 * 32 + (i 0).val, by show _ < 128; omega⟩, flush1_5 _, ?_⟩
  rw [mem_blk_ctx]
  obtain ⟨-, -, -, -, -, -, -, -, -, -, -, -, -, -, -, -, e0, e1, e2⟩ := idx_facts ⟨(i 1).val / 512 * 32 + (i 0).val, by show _ < 128; omega⟩
  intro a
  match a with
  | ⟨0, _⟩ => show win1_5.index _ (0 : Fin 3) * 1 ≤ (i 0).val ∧ (i 0).val < win1_5.index _ (0 : Fin 3) * 1 + 1; rw [e0]; show ((i 1).val / 512 * 32 + (i 0).val) % 32 * 1 ≤ _ ∧ _ < ((i 1).val / 512 * 32 + (i 0).val) % 32 * 1 + 1; omega
  | ⟨1, _⟩ => show win1_5.index _ (1 : Fin 3) * 512 ≤ (i 1).val ∧ (i 1).val < win1_5.index _ (1 : Fin 3) * 512 + 512; rw [e1]; show ((i 1).val / 512 * 32 + (i 0).val) / 32 * 512 ≤ _ ∧ _ < ((i 1).val / 512 * 32 + (i 0).val) / 32 * 512 + 512; omega
  | ⟨2, _⟩ => show win1_5.index _ (2 : Fin 3) * 64 ≤ (i 2).val ∧ (i 2).val < win1_5.index _ (2 : Fin 3) * 64 + 64; rw [e2]; omega

/-- THE CONTEXT ARRAY after the region, at batch-head `bh`, query row `q`, position `d`. -/
theorem out_ctx (c : Dev nD) (bh : Fin 32) (q : Fin 2048) (d : Fin 64) :
    ((dat1 V c).arrAt 5 cfg1.N : S32x2048x64.Idx → EReal) (ix3 bh q d)
      = ctxRow (attnRow (fun d' => (V c main_v10 : S32x2048x64.Idx → EReal) (ix3 bh q d')) (fun k' d' => (V c main_v11 : S32x2048x64.Idx → EReal) (ix3 bh k' d'))
          (fun k' => (V c main_arg1 : S1x1x2048x2048.Idx → BitVec 32) (ix4 (0 : Fin 1) (0 : Fin 1) q k')))
          (fun k' => (V c main_v12 : S32x2048x64.Idx → EReal) (ix3 bh k' d)) := by
  refine (dat1 V c).arrAt_forall_of_cover 5
    (fun i v => ∀ (bh : Fin 32) (q : Fin 2048) (d : Fin 64), (i : S32x2048x64.Idx) = ix3 bh q d →
      (v : EReal) = ctxRow (attnRow (fun d' => (V c main_v10 : S32x2048x64.Idx → EReal) (ix3 bh q d')) (fun k' d' => (V c main_v11 : S32x2048x64.Idx → EReal) (ix3 bh k' d'))
          (fun k' => (V c main_arg1 : S1x1x2048x2048.Idx → BitVec 32) (ix4 (0 : Fin 1) (0 : Fin 1) q k')))
          (fun k' => (V c main_v12 : S32x2048x64.Idx → EReal) (ix3 bh k' d)))
    ?_ (cover_ctx) (ix3 bh q d) bh q d rfl
  intro t _ y bh q d hi
  obtain ⟨y0, y1, y2, rfl⟩ : ∃ (y0 : Fin 1) (y1 : Fin 512) (y2 : Fin 64), y = ix3 y0 y1 y2 := ⟨y 0, y 1, y 2, eq_ix3 y⟩
  obtain ⟨-, -, -, -, -, -, -, -, -, -, -, -, -, -, -, -, e0, e1, e2⟩ := idx_facts t
  have c0 : win1_5.index t (0 : Fin 3) * 1 + 1 * y0.val = bh.val := congrArg Fin.val (congrFun hi 0)
  have c1 : win1_5.index t (1 : Fin 3) * 512 + 1 * y1.val = q.val := congrArg Fin.val (congrFun hi 1)
  have c2 : win1_5.index t (2 : Fin 3) * 64 + 1 * y2.val = d.val := congrArg Fin.val (congrFun hi 2)
  have ht : t.val < 128 := t.isLt
  obtain rfl : y0 = 0 := Fin.ext (by omega)
  obtain rfl : y2 = d := Fin.ext (by omega)
  show (dat1 V c).flushed 5 t (ix3 (0 : Fin 1) y1 y2) = _
  rw [flushed_ctx, Cert.KernelIdeal.Body1.ctx_apply]
  simp only [read_q V c t y1 _ bh q (by omega) (by omega), read_k V c t _ _ bh (by omega), read_v V c t _ _ bh (by omega), read_m V c t y1 _ q (by omega)]

end Cert.KernelIdeal.Region1

end
-- ==== Proof.Body2.lean ====
/-
  What the output kernel's body stores, read at an index.

  A block holds 256 rows of the context, head by head (16 heads of 256×64), and the same 256 rows of the
  input.  The body merges the heads into rows of 1024, multiplies them into a 1024×1024 weight matrix, adds
  the bias row, and adds the input block.
-/
import proofs.«104772_j69398081569166_2_alg».proof.Proof.Gen.KernelIdeal.Skeleton
import proofs.«104772_j69398081569166_2_alg».proof.Proof.LibPlainDot
import proofs.«104772_j69398081569166_2_alg».proof.Proof.LibAffineRow
import proofs.«104772_j69398081569166_2_alg».proof.Proof.LibHeadLayout
import proofs.«104772_j69398081569166_2_alg».proof.Proof.Spec
import Idealize.ShloMosaic.Lib.ValueLayout

noncomputable section

namespace Cert.KernelIdeal.Body2

open Cert.KernelIdeal Cert.KernelIdeal.Gen
open Idealize.ShloMosaic Idealize.ShloMosaic.ValueIdx Cert.Spec

theorem dot_plain : dot_S256x1024_S1024x1024_S256x1024_1_0_0_1_n_n = DotDims.plain 256 1024 1024 := rfl

/-- The merged context block at `(r, k)`: head `k / 64`, position `k % 64` of row `r`. -/
theorem merged_apply (c0 : Vec Ideal S1x16x256x64 .bf16) (h1 : S1x16x256x64.ShapeCasts S16x256x64)
    (h2 : S16x256x64.Transposes [1, 0, 2] S256x16x64) (h3 : S256x16x64.ShapeCasts S256x1024) (r : Fin 256) (k : Fin 1024) :
    shapeCast S256x1024 (transpose S256x16x64 [1, 0, 2] (shapeCast S16x256x64 c0 h1) h2) h3 (ix2 r k)
      = c0 (ix4 (0 : Fin 1) (headOf k) r (posOf k)) := by
  rw [Cert.LibHeadLayout.shapeCast_merge_apply _ _ (by norm_num) r (headOf k) (posOf k) k (col_headOf_posOf k),
    Cert.LibHeadLayout.transpose_ix3_102_apply, shapeCast_1abc_abc_apply]

/-- The stored block at `(r, e)`. -/
theorem out_apply (c0 : Vec Ideal S1x16x256x64 .bf16) (woT : Vec Ideal S1024x1024 .bf16) (bo : Vec Ideal S1024 .f32)
    (xb : Vec Ideal S256x1024 .f32) (r : Fin 256) (e : Fin 1024) :
    k2_pay1 (F := Ideal) c0 woT bo xb (ix2 r e)
      = outRow (xb (ix2 r e)) (fun k => c0 (ix4 (0 : Fin 1) (headOf k) r (posOf k))) (fun k => woT (ix2 k e)) (bo (ix1 e)) := by
  unfold k2_pay1
  rw [addf_apply, shapeCast_self, dot_plain, Cert.Lib.matmul_bias_apply]
  unfold outRow
  refine congrArg (xb (ix2 r e) + ·) (congrArg (· + bo (ix1 e)) (Finset.sum_congr rfl fun k _ => ?_))
  rw [merged_apply, shapeCast_self]

end Cert.KernelIdeal.Body2

end
-- ==== Proof.Region2.lean ====
/-
  The output kernel's array after its region, entry by entry.

  The grid has 16 points; point `t` reads, for batch `t / 8`, rows `256·(t % 8) …` of every head of the context,
  rows `256·t …` of the flattened input, the whole weight matrix and bias, and writes rows `256·t …` of the output.
-/
import proofs.«104772_j69398081569166_2_alg».proof.Proof.Gen.KernelIdeal.Frame
import proofs.«104772_j69398081569166_2_alg».proof.Proof.Body2
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps, decided over the grid. -/
theorem idx_facts : ∀ t : Fin cfg2.N,
    win2_0.index t (0 : Fin 4) = t.val / 8 ∧ win2_0.index t (1 : Fin 4) = 0 ∧ win2_0.index t (2 : Fin 4) = t.val % 8 ∧ win2_0.index t (3 : Fin 4) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-! ## The input blocks, read where they sit in their arrays -/

/-- Row `r` of head `h` of the context block at point `t` is row `256·(t % 8) + r` of head `h` of batch `t / 8`. -/
theorem read_c (c : Dev nD) (t : Fin cfg2.N) (h : Fin 16) (r : Fin 256) (d : Fin 64) (b : Fin 2) (s : Fin 2048)
    (hb : b.val = t.val / 8) (hs : s.val = t.val % 8 * 256 + r.val) :
    iblk2 V c 0 t (ix4 (0 : Fin 1) h r d) = (V c main_v14 : S2x16x2048x64.Idx → EReal) (ix4 b h s d) := by
  show (V c main_v14 : S2x16x2048x64.Idx → EReal) (((cfg2.win 0).blk t).view.emb (ix4 (0 : Fin 1) h r d)) = _
  refine congrArg _ (funext fun a => Fin.ext ?_)
  obtain ⟨e0, e1, e2, e3, -⟩ := idx_facts t
  match a with
  | ⟨0, _⟩ => show win2_0.index t (0 : Fin 4) * 1 + 1 * 0 = b.val; omega
  | ⟨1, _⟩ => show win2_0.index t (1 : Fin 4) * 16 + 1 * h.val = h.val; omega
  | ⟨2, _⟩ => show win2_0.index t (2 : Fin 4) * 256 + 1 * r.val = s.val; omega
  | ⟨3, _⟩ => show win2_0.index t (3 : Fin 4) * 64 + 1 * d.val = d.val; omega

/-- Row `r` of the input block at point `t` is row `256·t + r` of the flattened input. -/
theorem read_x (c : Dev nD) (t : Fin cfg2.N) (r : Fin 256) (e : Fin 1024) (R : Fin 4096) (hR : R.val = t.val * 256 + r.val) :
    iblk2 V c 1 t (ix2 r e) = (V c main_v0 : S4096x1024.Idx → EReal) (ix2 R e) := by
  show (V c main_v0 : S4096x1024.Idx → EReal) (((cfg2.win 1).blk t).view.emb (ix2 r e)) = _
  refine congrArg _ (funext fun a => Fin.ext ?_)
  obtain ⟨-, -, -, -, e0, e1, -⟩ := idx_facts t
  match a with
  | ⟨0, _⟩ => show win2_1.index t (0 : Fin 2) * 256 + 1 * r.val = R.val; omega
  | ⟨1, _⟩ => show win2_1.index t (1 : Fin 2) * 1024 + 1 * e.val = e.val; omega

/-- The weight block is the whole weight matrix. -/
theorem read_w (c : Dev nD) (t : Fin cfg2.N) (k e : Fin 1024) :
    iblk2 V c 2 t (ix2 k e) = (V c main_v8 : S1024x1024.Idx → EReal) (ix2 k e) := by
  show (V c main_v8 : S1024x1024.Idx → EReal) (((cfg2.win 2).blk t).view.emb (ix2 k e)) = _
  refine congrArg _ (funext fun a => Fin.ext ?_)
  obtain ⟨-, -, -, -, -, -, e0, e1, -⟩ := idx_facts t
  match a with
  | ⟨0, _⟩ => show win2_2.index t (0 : Fin 2) * 1024 + 1 * k.val = k.val; omega
  | ⟨1, _⟩ => show win2_2.index t (1 : Fin 2) * 1024 + 1 * e.val = e.val; omega

/-- The bias block is the whole bias vector. -/
theorem read_b (c : Dev nD) (t : Fin cfg2.N) (e : Fin 1024) :
    iblk2 V c 3 t (ix1 e) = (V c main_arg9 : S1024.Idx → EReal) (ix1 e) := by
  show (V c main_arg9 : S1024.Idx → EReal) (((cfg2.win 3).blk t).view.emb (ix1 e)) = _
  refine congrArg _ (funext fun a => Fin.ext ?_)
  obtain ⟨-, -, -, -, -, -, -, -, e0, -⟩ := idx_facts t
  match a with
  | ⟨0, _⟩ => show win2_3.index t (0 : Fin 1) * 1024 + 1 * e.val = e.val; omega

/-! ## The output -/

/-- What point `t` writes back is the body's payload of the point's blocks. -/
theorem flushed_o (c : Dev nD) (t : Fin cfg2.N) (y : S256x1024.Idx) :
    (dat2 V c).flushed 4 t y = k2_pay1 (iblk2 V c 0 t) (iblk2 V c 2 t) (iblk2 V c 3 t) (iblk2 V c 1 t) y := by
  show (cfg2.win 4).cut (grid2.coords t) ((dat2 V c).after 4 t) y = _
  rw [after2_4]
  unfold out2_4
  rw [View.canon_unit_zero hz2]
  simp only [View.ld_unit_zero (S := S1x16x256x64) hz4, View.ld_unit_zero (S := S1024x1024) hz2, View.ld_unit_zero (S := S1024) hz1, View.ld_unit_zero (S := S256x1024) hz2]
  rfl

theorem mem_blk_o (t : Fin cfg2.N) (i : S4096x1024.Idx) :
    i ∈ ((cfg2.win 4).blk t).view.set ↔ ∀ a : Fin 2, win2_4.index t a * S256x1024.size a ≤ (i a).val ∧ (i a).val < win2_4.index t a * S256x1024.size a + S256x1024.size a := by
  show i ∈ ((View.whole main_v15).slice (win2_4.rect t)).set ↔ _
  rw [View.set_slice_whole, Rect.mem_set_unit]
  exact Iff.rfl

/-- Every entry of the output array is in some point's block. -/
theorem cover_o (i : S4096x1024.Idx) : ∃ t : Fin cfg2.N, (cfg2.win 4).flush t = true ∧ i ∈ ((cfg2.win 4).blk t).view.set := by
  have h0 : (i 0).val < 4096 := (i 0).isLt
  have h1 : (i 1).val < 1024 := (i 1).isLt
  refine ⟨⟨(i 0).val / 256, by show _ < 16; omega⟩, flush2_4 _, ?_⟩
  rw [mem_blk_o]
  obtain ⟨-, -, -, -, -, -, -, -, -, e0, e1⟩ := idx_facts ⟨(i 0).val / 256, by show _ < 16; omega⟩
  intro a
  match a with
  | ⟨0, _⟩ => show win2_4.index _ (0 : Fin 2) * 256 ≤ (i 0).val ∧ (i 0).val < win2_4.index _ (0 : Fin 2) * 256 + 256; rw [e0]; show (i 0).val / 256 * 256 ≤ _ ∧ _ < (i 0).val / 256 * 256 + 256; omega
  | ⟨1, _⟩ => show win2_4.index _ (1 : Fin 2) * 1024 ≤ (i 1).val ∧ (i 1).val < win2_4.index _ (1 : Fin 2) * 1024 + 1024; rw [e1]; omega

/-- THE OUTPUT ARRAY after the region, at flattened row `R = 2048·b + s`, column `e`. -/
theorem out_o (c : Dev nD) (R : Fin 4096) (e : Fin 1024) (b : Fin 2) (s : Fin 2048) (hR : R.val = b.val * 2048 + s.val) :
    ((dat2 V c).arrAt 4 cfg2.N : S4096x1024.Idx → EReal) (ix2 R e)
      = outRow ((V c main_v0 : S4096x1024.Idx → EReal) (ix2 R e)) (fun k => (V c main_v14 : S2x16x2048x64.Idx → EReal) (ix4 b (headOf k) s (posOf k)))
          (fun k => (V c main_v8 : S1024x1024.Idx → EReal) (ix2 k e)) ((V c main_arg9 : S1024.Idx → EReal) (ix1 e)) := by
  refine (dat2 V c).arrAt_forall_of_cover 4
    (fun i v => ∀ (R : Fin 4096) (e : Fin 1024) (b : Fin 2) (s : Fin 2048), (i : S4096x1024.Idx) = ix2 R e → R.val = b.val * 2048 + s.val →
      (v : EReal) = outRow ((V c main_v0 : S4096x1024.Idx → EReal) (ix2 R e)) (fun k => (V c main_v14 : S2x16x2048x64.Idx → EReal) (ix4 b (headOf k) s (posOf k)))
          (fun k => (V c main_v8 : S1024x1024.Idx → EReal) (ix2 k e)) ((V c main_arg9 : S1024.Idx → EReal) (ix1 e)))
    ?_ (cover_o) (ix2 R e) R e b s rfl hR
  intro t _ y R e b s hi hR
  obtain ⟨y0, y1, rfl⟩ : ∃ (y0 : Fin 256) (y1 : Fin 1024), y = ix2 y0 y1 := ⟨y 0, y 1, eq_ix2 y⟩
  obtain ⟨-, -, -, -, -, -, -, -, -, e0, e1⟩ := idx_facts t
  have c0 : win2_4.index t (0 : Fin 2) * 256 + 1 * y0.val = R.val := congrArg Fin.val (congrFun hi 0)
  have c1 : win2_4.index t (1 : Fin 2) * 1024 + 1 * y1.val = e.val := congrArg Fin.val (congrFun hi 1)
  have ht : t.val < 16 := t.isLt
  have hs := s.isLt
  have hy := y0.isLt
  obtain rfl : y1 = e := Fin.ext (by omega)
  show (dat2 V c).flushed 4 t (ix2 y0 y1) = _
  rw [flushed_o, Cert.KernelIdeal.Body2.out_apply]
  simp only [read_x V c t y0 _ R (by omega), read_c V c t _ y0 _ b s (by omega) (by omega), read_w, read_b]

end Cert.KernelIdeal.Region2

end
-- ==== Proof.RefProj.lean ====
/-
  The reference's normalisation and its three projections, read at an index.

  The reference normalises every row of the input by its root mean square, multiplies the rows into each weight
  matrix (contracting the weight's second axis), adds the bias, and re-lays the [2, 2048, 1024] result as
  [2, 16, 2048, 64]: batch, head, row, position.
-/
import proofs.«104772_j69398081569166_2_alg».proof.Proof.Gen.ReferenceIdeal.Read
import proofs.«104772_j69398081569166_2_alg».proof.Proof.Spec

noncomputable section

namespace Cert.ReferenceIdeal.RefProj

open Cert.ReferenceIdeal Cert.ReferenceIdeal.Read
open Idealize.ShloMosaic Idealize.ShloMosaic.ValueIdx Cert.Spec

variable (x0 : S2x2048x1024.Idx → EReal) (x10 : S1024.Idx → EReal)

/-- The normalised input at `(b, s, k)`. -/
theorem normed_apply (b : Fin 2) (s : Fin 2048) (k : Fin 1024) :
    val_main_v12 (F := Ideal) x0 x10 (ix3 b s k) = normRow (fun k' => x0 (ix3 b s k')) (fun k' => x10 (ix1 k')) k := by
  rw [val_main_v12_apply, val_main_v9_apply, val_main_v8_apply, val_main_v7_apply, val_main_v6_apply, val_main_v4_apply,
    val_main_v2_apply, val_main_v1_apply, val_main_v11_apply, val_main_v10_apply]
  have e1 : ∀ k' : Fin 1024, idx_main_v1 (idx_main_v2 (idx_main_v8 (ix3 b s k))) k' = ix3 b s k' := fun k' =>
    funext fun a => Fin.ext (by match a with | ⟨0, _⟩ => rfl | ⟨1, _⟩ => rfl | ⟨2, _⟩ => rfl)
  have e2 : idx_main_v10 (idx_main_v11 (ix3 b s k)) = ix1 k :=
    funext fun a => Fin.ext (by match a with | ⟨0, _⟩ => rfl)
  simp only [e1, e2]
  show x0 (ix3 b s k) * Ideal.rsqrt (Ideal.div (Ideal.ofBits .f32 0x00000000#32 + ∑ k' : Fin 1024, x0 (ix3 b s k') * x0 (ix3 b s k')) len + eps) * x10 (ix1 k) = _
  rw [Ideal.ofBits_zero_f32, zero_add]
  rfl

/-- The indices the first head split reads: batch `b`, head `h`, row `s`, position `d` is row `(b, s)`, column `64·h + d`. -/
theorem split_idx (b : Fin 2) (h : Fin 16) (s : Fin 2048) (d : Fin 64) :
    idx_main_v17 (idx_main_v18 (ix4 b h s d)) = ix3 b s (col h d) := by
  have hb := b.isLt; have hh := h.isLt; have hs := s.isLt; have hd := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The first projection, head by head. -/
theorem q_apply (x2 : S1024x1024.Idx → EReal) (x3 : S1024.Idx → EReal) (b : Fin 2) (h : Fin 16) (s : Fin 2048) (d : Fin 64) :
    val_main_v18 (F := Ideal) x0 x2 x3 x10 (ix4 b h s d)
      = projRow (fun k => x0 (ix3 b s k)) (fun k => x10 (ix1 k)) (fun k => x2 (ix2 (col h d) k)) (x3 (ix1 (col h d))) := by
  rw [val_main_v18_apply, val_main_v17_apply, split_idx, val_main_v16_apply, val_main_v13_apply, val_main_v15_apply, val_main_v14_apply]
  have e1 : ∀ k : Fin 1024, lidx_main_v13 (ix3 b s (col h d)) k = ix3 b s k := fun k =>
    funext fun a => Fin.ext (by match a with | ⟨0, _⟩ => rfl | ⟨1, _⟩ => rfl | ⟨2, _⟩ => rfl)
  have e2 : ∀ k : Fin 1024, ridx_main_v13 (ix3 b s (col h d)) k = ix2 (col h d) k := fun k =>
    funext fun a => Fin.ext (by match a with | ⟨0, _⟩ => rfl | ⟨1, _⟩ => rfl)
  have e3 : idx_main_v14 (idx_main_v15 (ix3 b s (col h d))) = ix1 (col h d) :=
    funext fun a => Fin.ext (by match a with | ⟨0, _⟩ => rfl)
  simp only [e1, e2, e3, normed_apply]
  rfl

/-- The second projection, head by head. -/
theorem k_apply (x4 : S1024x1024.Idx → EReal) (x5 : S1024.Idx → EReal) (b : Fin 2) (h : Fin 16) (s : Fin 2048) (d : Fin 64) :
    val_main_v24 (F := Ideal) x0 x4 x5 x10 (ix4 b h s d)
      = projRow (fun k => x0 (ix3 b s k)) (fun k => x10 (ix1 k)) (fun k => x4 (ix2 (col h d) k)) (x5 (ix1 (col h d))) := by
  rw [val_main_v24_apply, val_main_v23_apply, show idx_main_v23 (idx_main_v24 (ix4 b h s d)) = ix3 b s (col h d) from split_idx b h s d,
    val_main_v22_apply, val_main_v19_apply, val_main_v21_apply, val_main_v20_apply]
  have e1 : ∀ k : Fin 1024, lidx_main_v19 (ix3 b s (col h d)) k = ix3 b s k := fun k =>
    funext fun a => Fin.ext (by match a with | ⟨0, _⟩ => rfl | ⟨1, _⟩ => rfl | ⟨2, _⟩ => rfl)
  have e2 : ∀ k : Fin 1024, ridx_main_v19 (ix3 b s (col h d)) k = ix2 (col h d) k := fun k =>
    funext fun a => Fin.ext (by match a with | ⟨0, _⟩ => rfl | ⟨1, _⟩ => rfl)
  have e3 : idx_main_v20 (idx_main_v21 (ix3 b s (col h d))) = ix1 (col h d) :=
    funext fun a => Fin.ext (by match a with | ⟨0, _⟩ => rfl)
  simp only [e1, e2, e3, normed_apply]
  rfl

/-- The third projection, head by head. -/
theorem v_apply (x6 : S1024x1024.Idx → EReal) (x7 : S1024.Idx → EReal) (b : Fin 2) (h : Fin 16) (s : Fin 2048) (d : Fin 64) :
    val_main_v30 (F := Ideal) x0 x6 x7 x10 (ix4 b h s d)
      = projRow (fun k => x0 (ix3 b s k)) (fun k => x10 (ix1 k)) (fun k => x6 (ix2 (col h d) k)) (x7 (ix1 (col h d))) := by
  rw [val_main_v30_apply, val_main_v29_apply, show idx_main_v29 (idx_main_v30 (ix4 b h s d)) = ix3 b s (col h d) from split_idx b h s d,
    val_main_v28_apply, val_main_v25_apply, val_main_v27_apply, val_main_v26_apply]
  have e1 : ∀ k : Fin 1024, lidx_main_v25 (ix3 b s (col h d)) k = ix3 b s k := fun k =>
    funext fun a => Fin.ext (by match a with | ⟨0, _⟩ => rfl | ⟨1, _⟩ => rfl | ⟨2, _⟩ => rfl)
  have e2 : ∀ k : Fin 1024, ridx_main_v25 (ix3 b s (col h d)) k = ix2 (col h d) k := fun k =>
    funext fun a => Fin.ext (by match a with | ⟨0, _⟩ => rfl | ⟨1, _⟩ => rfl)
  have e3 : idx_main_v26 (idx_main_v27 (ix3 b s (col h d))) = ix1 (col h d) :=
    funext fun a => Fin.ext (by match a with | ⟨0, _⟩ => rfl)
  simp only [e1, e2, e3, normed_apply]
  rfl

end Cert.ReferenceIdeal.RefProj

end
-- ==== Proof.Consts.lean ====
/-
  The float constants the two programs spell, as the extended reals their bit patterns denote, and the one
  law that joins the two spellings of the attention scale: the reference divides the scores by the square
  root of 64, the kernel multiplies them by 1/8.  The square root of 64 is exactly 8, and dividing any
  extended real by the non-zero real 8 is multiplying it by 1/8.
-/
import Idealize.ShloMosaic.PureOps.Ideal

noncomputable section

namespace Cert.Consts

open Idealize.ShloMosaic

/-- `64.0` denotes the real 64. -/
theorem ofBits_64 : Ideal.ofBits .f32 0x42800000#32 = ((64 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- The square root of `64.0` is the real 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by the square root of `64.0` is multiplying by `0.125`, at every extended real. -/
theorem div_sqrt_64 (x : EReal) :
    Ideal.div x (Ideal.sqrt (Ideal.ofBits .f32 0x42800000#32)) = x * Ideal.ofBits .f32 0x3E000000#32 := by
  rw [sqrt_64, ofBits_eighth]
  exact Ideal.div_coe (by norm_num) x

end Cert.Consts

end
-- ==== Proof.LibRowMax4.lean ====
/-
  A host maximum over the last axis of a rank-4 array, read at an index: on the extended reals it is the fold of
  `max` from the initial value over that axis (the rank-4 companion of the row maximum of a matrix).
-/
import Idealize.ShloMosaic.PureOps.Ideal
import Idealize.ShloMosaic.PureOps.Ideal.Laws
import Idealize.ShloMosaic.PureOps.Reduce
import Idealize.ShloMosaic.Lib.ValueIdx

noncomputable section

namespace Cert.LibRowMax4

open Idealize.ShloMosaic Idealize.ShloMosaic.ValueIdx

/-- Over result index `(p, q, r)`, the source index with `k` on the reduced last axis is `(p, q, r, k)`. -/
theorem lift_last4 {a b c d : ℕ} (h : (⟨4, ![a, b, c, d]⟩ : Shape).Reduces [3] ⟨3, ![a, b, c]⟩) (p : Fin a) (q : Fin b) (r : Fin c) (k : Fin d) :
    h.lift (ix3 p q r) k = ix4 p q r k := by
  funext e
  apply Fin.ext
  match e with
  | ⟨0, _⟩ => rfl
  | ⟨1, _⟩ => rfl
  | ⟨2, _⟩ => rfl
  | ⟨3, _⟩ => rfl

/-- A host maximum over the last axis of a rank-4 array: the fold of `max` from the initial value over that axis. -/
theorem hostReduce_max_last4 {a b c d : ℕ} {φ : FTy} {u : Shape} (X : FVec Ideal ⟨4, ![a, b, c, d]⟩ φ) (init : FVec Ideal u φ)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (p : Fin a) (q : Fin b) (r : Fin c) :
    Host.reduce (FloatOps.maximumf (F := Ideal) (φ := φ)) X init h' hu (ix3 p q r)
      = (Finset.univ : Finset (Fin d)).fold max (init (Shape.Idx.first hu)) (fun k => X (ix4 p q r k)) := by
  refine (Host.reduce_eq_fold_single (FloatOps.maximumf (F := Ideal) (φ := φ)) X init h' h hu (ix3 p q r)).trans ?_
  have e : (X ∘ h.lift (ix3 p q r)) = fun k : Fin d => X (ix4 p q r k) := funext fun k => congrArg X (lift_last4 h p q r k)
  rw [e]
  rfl

end Cert.LibRowMax4

end
-- ==== Proof.RefAttn.lean ====
/-
  The reference's attention and output stages, read at an index.

  The scores are the head-wise products of the projected queries and keys divided by the square root of 64 —
  the same number as their product with 1/8 —, masked where the mask is zero; a softmax along the keys (the
  maximum taken from `-∞`, and once more against `-∞`, which changes nothing); the context is the weights
  against the projected values; the output re-lays the context's heads into rows, multiplies them into the
  last weight matrix, adds the bias and the input.
-/
import proofs.«104772_j69398081569166_2_alg».proof.Proof.Gen.ReferenceIdeal.Read
import proofs.«104772_j69398081569166_2_alg».proof.Proof.Spec
import proofs.«104772_j69398081569166_2_alg».proof.Proof.Consts
import proofs.«104772_j69398081569166_2_alg».proof.Proof.LibRowMax4

noncomputable section

namespace Cert.ReferenceIdeal.RefAttn

open Cert.ReferenceIdeal Cert.ReferenceIdeal.Read
open Idealize.ShloMosaic Idealize.ShloMosaic.ValueIdx Cert.Spec

variable (x0 : S2x2048x1024.Idx → EReal) (x1 : S1x1x2048x2048.Idx → BitVec 32) (x2 : S1024x1024.Idx → EReal) (x3 : S1024.Idx → EReal)
  (x4 : S1024x1024.Idx → EReal) (x5 : S1024.Idx → EReal) (x6 : S1024x1024.Idx → EReal) (x7 : S1024.Idx → EReal)
  (x8 : S1024x1024.Idx → EReal) (x9 x10 : S1024.Idx → EReal)

/-- The masked, scaled score of query `q` against key `k` in head `h` of batch `b`. -/
theorem score_apply (b : Fin 2) (h : Fin 16) (q k : Fin 2048) :
    val_main_v37 (F := Ideal) x0 x1 x2 x3 x4 x5 x10 (ix4 b h q k)
      = score (fun d => val_main_v18 (F := Ideal) x0 x2 x3 x10 (ix4 b h q d)) (fun d => val_main_v24 (F := Ideal) x0 x4 x5 x10 (ix4 b h k d))
          (x1 (ix4 (0 : Fin 1) (0 : Fin 1) q k)) := by
  rw [val_main_v37_apply, val_main_call0_v0_apply, val_main_v36_apply, val_main_v34_apply, val_main_v31_apply]
  have e1 : idx_main_call0_v0 (ix4 b h q k) = ix4 (0 : Fin 1) (0 : Fin 1) q k :=
    funext fun a => Fin.ext (by match a with | ⟨0, _⟩ => rfl | ⟨1, _⟩ => rfl | ⟨2, _⟩ => rfl | ⟨3, _⟩ => rfl)
  have e2 : ∀ d : Fin 64, lidx_main_v31 (ix4 b h q k) d = ix4 b h q d := fun d =>
    funext fun a => Fin.ext (by match a with | ⟨0, _⟩ => rfl | ⟨1, _⟩ => rfl | ⟨2, _⟩ => rfl | ⟨3, _⟩ => rfl)
  have e3 : ∀ d : Fin 64, ridx_main_v31 (ix4 b h q k) d = ix4 b h k d := fun d =>
    funext fun a => Fin.ext (by match a with | ⟨0, _⟩ => rfl | ⟨1, _⟩ => rfl | ⟨2, _⟩ => rfl | ⟨3, _⟩ => rfl)
  simp only [e1, e2, e3]
  show Scalar.select (IntOp.cmpi .eq (x1 (ix4 (0 : Fin 1) (0 : Fin 1) q k)) 0#32) masked
    (Ideal.div (∑ d : Fin 64, val_main_v18 (F := Ideal) x0 x2 x3 x10 (ix4 b h q d) * val_main_v24 (F := Ideal) x0 x4 x5 x10 (ix4 b h k d))
      (Ideal.sqrt (Ideal.ofBits .f32 0x42800000#32))) = _
  rw [Cert.Consts.div_sqrt_64]
  rfl

/-- The maximum of a row of scores. -/
theorem rowmax_apply (b : Fin 2) (h : Fin 16) (q : Fin 2048) :
    val_main_v40 (F := Ideal) x0 x1 x2 x3 x4 x5 x10 (ix3 b h q)
      = (Finset.univ : Finset (Fin 2048)).fold max ninf (fun k => val_main_v37 (F := Ideal) x0 x1 x2 x3 x4 x5 x10 (ix4 b h q k)) := by
  rw [val_main_v40_apply]
  unfold val_main_v38
  rw [Cert.LibRowMax4.hostReduce_max_last4 _ _ _ (by decide) _ b h q]
  exact max_eq_right ((Finset.le_fold_max _).2 (Or.inl le_rfl))

/-- The attention weight of query `q` on key `k`. -/
theorem attn_apply (b : Fin 2) (h : Fin 16) (q k : Fin 2048) :
    val_main_v48 (F := Ideal) x0 x1 x2 x3 x4 x5 x10 (ix4 b h q k)
      = attnRow (fun d => val_main_v18 (F := Ideal) x0 x2 x3 x10 (ix4 b h q d)) (fun k' d => val_main_v24 (F := Ideal) x0 x4 x5 x10 (ix4 b h k' d))
          (fun k' => x1 (ix4 (0 : Fin 1) (0 : Fin 1) q k')) k := by
  have e1 : ∀ k' : Fin 2048, idx_main_v41 (idx_main_v42 (ix4 b h q k')) = ix3 b h q := fun k' =>
    funext fun a => Fin.ext (by match a with | ⟨0, _⟩ => rfl | ⟨1, _⟩ => rfl | ⟨2, _⟩ => rfl)
  have e2 : idx_main_v46 (idx_main_v47 (ix4 b h q k)) = ix3 b h q :=
    funext fun a => Fin.ext (by match a with | ⟨0, _⟩ => rfl | ⟨1, _⟩ => rfl | ⟨2, _⟩ => rfl)
  have e3 : ∀ k' : Fin 2048, idx_main_v45 (ix3 b h q) k' = ix4 b h q k' := fun k' =>
    funext fun a => Fin.ext (by match a with | ⟨0, _⟩ => rfl | ⟨1, _⟩ => rfl | ⟨2, _⟩ => rfl | ⟨3, _⟩ => rfl)
  have hexp : ∀ k' : Fin 2048, val_main_v44 (F := Ideal) x0 x1 x2 x3 x4 x5 x10 (ix4 b h q k')
      = Ideal.exp (val_main_v37 (F := Ideal) x0 x1 x2 x3 x4 x5 x10 (ix4 b h q k')
          - (Finset.univ : Finset (Fin 2048)).fold max ninf (fun k'' => val_main_v37 (F := Ideal) x0 x1 x2 x3 x4 x5 x10 (ix4 b h q k''))) := fun k' => by
    rw [val_main_v44_apply, val_main_v43_apply, val_main_v42_apply, val_main_v41_apply, e1, rowmax_apply]
    rfl
  rw [val_main_v48_apply, val_main_v47_apply, val_main_v46_apply, e2, val_main_v45_apply]
  simp only [e3, hexp]
  show Ideal.div _ (Ideal.ofBits .f32 0x00000000#32 + _) = _
  rw [Ideal.ofBits_zero_f32, zero_add]
  unfold attnRow softmax
  simp only [score_apply]

/-- The context of query `q` at position `d`. -/
theorem ctx_apply (b : Fin 2) (h : Fin 16) (q : Fin 2048) (d : Fin 64) :
    val_main_v49 (F := Ideal) x0 x1 x2 x3 x4 x5 x6 x7 x10 (ix4 b h q d)
      = ctxRow (fun k => val_main_v48 (F := Ideal) x0 x1 x2 x3 x4 x5 x10 (ix4 b h q k)) (fun k => val_main_v30 (F := Ideal) x0 x6 x7 x10 (ix4 b h k d)) := by
  rw [val_main_v49_apply]
  have e1 : ∀ k : Fin 2048, lidx_main_v49 (ix4 b h q d) k = ix4 b h q k := fun k =>
    funext fun a => Fin.ext (by match a with | ⟨0, _⟩ => rfl | ⟨1, _⟩ => rfl | ⟨2, _⟩ => rfl | ⟨3, _⟩ => rfl)
  have e2 : ∀ k : Fin 2048, ridx_main_v49 (ix4 b h q d) k = ix4 b h k d := fun k =>
    funext fun a => Fin.ext (by match a with | ⟨0, _⟩ => rfl | ⟨1, _⟩ => rfl | ⟨2, _⟩ => rfl | ⟨3, _⟩ => rfl)
  simp only [e1, e2]
  rfl

/-- The merged context at `(b, s, k)` is head `k / 64`, position `k % 64` of row `s`. -/
theorem merged_apply (b : Fin 2) (s : Fin 2048) (k : Fin 1024) :
    val_main_v51 (F := Ideal) x0 x1 x2 x3 x4 x5 x6 x7 x10 (ix3 b s k)
      = val_main_v49 (F := Ideal) x0 x1 x2 x3 x4 x5 x6 x7 x10 (ix4 b (headOf k) s (posOf k)) := by
  rw [val_main_v51_apply, val_main_v50_apply]
  refine congrArg _ (funext fun a => Fin.ext ?_)
  have hb := b.isLt; have hs := s.isLt; have hk := k.isLt
  match a with
  | ⟨0, _⟩ => show ((b.val * 2048 + s.val) * 1024 + k.val) / 2097152 = b.val; omega
  | ⟨1, _⟩ => show ((b.val * 2048 + s.val) * 1024 + k.val) / 64 % 16 = k.val / 64; omega
  | ⟨2, _⟩ => show ((b.val * 2048 + s.val) * 1024 + k.val) / 1024 % 2048 = s.val; omega
  | ⟨3, _⟩ => show ((b.val * 2048 + s.val) * 1024 + k.val) % 64 = k.val % 64; omega

/-- The output at `(b, s, e)`. -/
theorem out_apply (b : Fin 2) (s : Fin 2048) (e : Fin 1024) :
    val_main_v56 (F := Ideal) x0 x1 x2 x3 x4 x5 x6 x7 x8 x9 x10 (ix3 b s e)
      = outRow (x0 (ix3 b s e)) (fun k => val_main_v49 (F := Ideal) x0 x1 x2 x3 x4 x5 x6 x7 x10 (ix4 b (headOf k) s (posOf k)))
          (fun k => x8 (ix2 e k)) (x9 (ix1 e)) := by
  rw [val_main_v56_apply, val_main_v55_apply, val_main_v52_apply, val_main_v54_apply, val_main_v53_apply]
  have e1 : ∀ k : Fin 1024, lidx_main_v52 (ix3 b s e) k = ix3 b s k := fun k =>
    funext fun a => Fin.ext (by match a with | ⟨0, _⟩ => rfl | ⟨1, _⟩ => rfl | ⟨2, _⟩ => rfl)
  have e2 : ∀ k : Fin 1024, ridx_main_v52 (ix3 b s e) k = ix2 e k := fun k =>
    funext fun a => Fin.ext (by match a with | ⟨0, _⟩ => rfl | ⟨1, _⟩ => rfl)
  have e3 : idx_main_v53 (idx_main_v54 (ix3 b s e)) = ix1 e :=
    funext fun a => Fin.ext (by match a with | ⟨0, _⟩ => rfl)
  simp only [e1, e2, e3, merged_apply]
  rfl

end Cert.ReferenceIdeal.RefAttn

end
-- ==== Proof.LibRowsFlatten.lean ====
/-
  Rows flattened and unflattened. An [a, b, c] array cast to [N, c] with N = a · b keeps the row-major order, so
  row R = i · b + j of the flat array is row (i, j) of the cube, entry by entry; and the cast back reads the flat
  array at that row.
-/
import Idealize.ShloMosaic.Lib.Pipeline.Value
import Idealize.ShloMosaic.Lib.ValueIdx

namespace Cert.LibRowsFlatten

open Idealize.ShloMosaic Idealize.ShloMosaic.ValueIdx

variable {α : Type}

/-- An `[a, b, c]` array cast to `[N, c]` reads, at `(R, k)` with `R = i · b + j`, the operand at `(i, j, k)`. -/
theorem shapeCast_flatten_apply {a b c N : ℕ} (x : (⟨3, ![a, b, c]⟩ : Shape).Idx → α)
    (h : (⟨3, ![a, b, c]⟩ : Shape).ShapeCasts ⟨2, ![N, c]⟩) (i : Fin a) (j : Fin b) (k : Fin c) (R : Fin N)
    (hR : R.val = i.val * b + j.val) :
    shapeCast ⟨2, ![N, c]⟩ x h (ix2 R k) = x (ix3 i j k) :=
  shapeCast_apply x h _ _ (by
    rw [Shape.rowMajor_val_three, Shape.rowMajor_val_two]
    show (i.val * b + j.val) * c + k.val = R.val * c + k.val
    rw [hR])

/-- An `[N, c]` array cast to `[a, b, c]` reads, at `(i, j, k)`, the operand at `(R, k)` with `R = i · b + j`. -/
theorem shapeCast_unflatten_apply {a b c N : ℕ} (y : (⟨2, ![N, c]⟩ : Shape).Idx → α)
    (h : (⟨2, ![N, c]⟩ : Shape).ShapeCasts ⟨3, ![a, b, c]⟩) (i : Fin a) (j : Fin b) (k : Fin c) (R : Fin N)
    (hR : R.val = i.val * b + j.val) :
    shapeCast ⟨3, ![a, b, c]⟩ y h (ix3 i j k) = y (ix2 R k) :=
  shapeCast_apply y h _ _ (by
    rw [Shape.rowMajor_val_three, Shape.rowMajor_val_two]
    show R.val * c + k.val = (i.val * b + j.val) * c + k.val
    rw [hR])

end Cert.LibRowsFlatten
-- ==== Proof.Chain.lean ====
/-
  The idealized kernel's two results as the reference's functions of the arguments.

  The buffer contents at the boundaries of @main are followed from the launch memory: the host lines before the
  first region flatten the input and transpose the weights; the first region leaves the three projections, head
  by head; the batch and head axes are folded into one; the second region leaves the attention weights and the
  context of every batch-head; the fold is undone; the third region leaves the output rows; the last host
  lines give the results their shapes.  At every stage the kernel's array, entry by entry, is the reference's
  stage at the same entry.
-/
import proofs.«104772_j69398081569166_2_alg».proof.Proof.Gen.KernelIdeal.Frame
import proofs.«104772_j69398081569166_2_alg».proof.Proof.Region0
import proofs.«104772_j69398081569166_2_alg».proof.Proof.Region1
import proofs.«104772_j69398081569166_2_alg».proof.Proof.Region2
import proofs.«104772_j69398081569166_2_alg».proof.Proof.RefProj
import proofs.«104772_j69398081569166_2_alg».proof.Proof.RefAttn
import proofs.«104772_j69398081569166_2_alg».proof.Proof.LibRowsFlatten
import proofs.«104772_j69398081569166_2_alg».proof.Proof.LibHeadLayout
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo Cert.Spec
open Idealize.ShloMosaic.Pipeline (Dat Cfg Window)

variable (m : (ℓ : Loc nD τ sig) → Buf (Elt Ideal) ℓ) (ρ : Dev nD → PrngReg) (c : Dev nD)

/-! ## The arguments at the launch -/

abbrev aX : S2x2048x1024.Idx → EReal := m ((c : Thread nD τ).loc main_arg0)
abbrev aM : S1x1x2048x2048.Idx → BitVec 32 := m ((c : Thread nD τ).loc main_arg1)
abbrev aWq : S1024x1024.Idx → EReal := m ((c : Thread nD τ).loc main_arg2)
abbrev aBq : S1024.Idx → EReal := m ((c : Thread nD τ).loc main_arg3)
abbrev aWk : S1024x1024.Idx → EReal := m ((c : Thread nD τ).loc main_arg4)
abbrev aBk : S1024.Idx → EReal := m ((c : Thread nD τ).loc main_arg5)
abbrev aWv : S1024x1024.Idx → EReal := m ((c : Thread nD τ).loc main_arg6)
abbrev aBv : S1024.Idx → EReal := m ((c : Thread nD τ).loc main_arg7)
abbrev aWo : S1024x1024.Idx → EReal := m ((c : Thread nD τ).loc main_arg8)
abbrev aBo : S1024.Idx → EReal := m ((c : Thread nD τ).loc main_arg9)
abbrev aG : S1024.Idx → EReal := m ((c : Thread nD τ).loc main_arg10)

/-! ## Before the first region -/

/-- The flattened input at row `2048·b + s`. -/
theorem h0_x (b : Fin 2) (s : Fin 2048) (k : Fin 1024) (R : Fin 4096) (hR : R.val = b.val * 2048 + s.val) :
    (V1 m ρ c main_v0 : S4096x1024.Idx → EReal) (ix2 R k) = aX m c (ix3 b s k) := by
  have e : (V1 m ρ c main_v0 : S4096x1024.Idx → EReal) = shapeCast S4096x1024 (aX m c) Facts₀.shapeCasts_S2x2048x1024_S4096x1024 := by
    show StableHlo.after hostOps0 (W0 m ρ c) (Proc.devRef .tc main_v0) = _
    after_results
    rfl
  rw [e, Cert.LibRowsFlatten.shapeCast_flatten_apply _ _ b s k R hR]

theorem h0_wq (k e : Fin 1024) : (V1 m ρ c main_v2 : S1024x1024.Idx → EReal) (ix2 k e) = aWq m c (ix2 e k) := by
  have e' : (V1 m ρ c main_v2 : S1024x1024.Idx → EReal) = truncf .bf16 (transpose S1024x1024 [1, 0] (aWq m c) Facts₀.transposes_S1024x1024_S1024x1024_1_0 : FVec Ideal S1024x1024 .f32) Facts₀.bitsLt_bf16_f32 := by
    show StableHlo.after hostOps0 (W0 m ρ c) (Proc.devRef .tc main_v2) = _
    after_results
  rw [e', truncf_apply, transpose_ix2_apply]

theorem h0_wk (k e : Fin 1024) : (V1 m ρ c main_v4 : S1024x1024.Idx → EReal) (ix2 k e) = aWk m c (ix2 e k) := by
  have e' : (V1 m ρ c main_v4 : S1024x1024.Idx → EReal) = truncf .bf16 (transpose S1024x1024 [1, 0] (aWk m c) Facts₀.transposes_S1024x1024_S1024x1024_1_0 : FVec Ideal S1024x1024 .f32) Facts₀.bitsLt_bf16_f32 := by
    show StableHlo.after hostOps0 (W0 m ρ c) (Proc.devRef .tc main_v4) = _
    after_results
  rw [e', truncf_apply, transpose_ix2_apply]

theorem h0_wv (k e : Fin 1024) : (V1 m ρ c main_v6 : S1024x1024.Idx → EReal) (ix2 k e) = aWv m c (ix2 e k) := by
  have e' : (V1 m ρ c main_v6 : S1024x1024.Idx → EReal) = truncf .bf16 (transpose S1024x1024 [1, 0] (aWv m c) Facts₀.transposes_S1024x1024_S1024x1024_1_0 : FVec Ideal S1024x1024 .f32) Facts₀.bitsLt_bf16_f32 := by
    show StableHlo.after hostOps0 (W0 m ρ c) (Proc.devRef .tc main_v6) = _
    after_results
  rw [e', truncf_apply, transpose_ix2_apply]

theorem h0_wo (k e : Fin 1024) : (V1 m ρ c main_v8 : S1024x1024.Idx → EReal) (ix2 k e) = aWo m c (ix2 e k) := by
  have e' : (V1 m ρ c main_v8 : S1024x1024.Idx → EReal) = truncf .bf16 (transpose S1024x1024 [1, 0] (aWo m c) Facts₀.transposes_S1024x1024_S1024x1024_1_0 : FVec Ideal S1024x1024 .f32) Facts₀.bitsLt_bf16_f32 := by
    show StableHlo.after hostOps0 (W0 m ρ c) (Proc.devRef .tc main_v8) = _
    after_results
  rw [e', truncf_apply, transpose_ix2_apply]

theorem h0_g : (V1 m ρ c main_arg10 : S1024.Idx → EReal) = aG m c := by
  show StableHlo.after hostOps0 (W0 m ρ c) (Proc.devRef .tc main_arg10) = _
  after_results
theorem h0_bq : (V1 m ρ c main_arg3 : S1024.Idx → EReal) = aBq m c := by
  show StableHlo.after hostOps0 (W0 m ρ c) (Proc.devRef .tc main_arg3) = _
  after_results
theorem h0_bk : (V1 m ρ c main_arg5 : S1024.Idx → EReal) = aBk m c := by
  show StableHlo.after hostOps0 (W0 m ρ c) (Proc.devRef .tc main_arg5) = _
  after_results
theorem h0_bv : (V1 m ρ c main_arg7 : S1024.Idx → EReal) = aBv m c := by
  show StableHlo.after hostOps0 (W0 m ρ c) (Proc.devRef .tc main_arg7) = _
  after_results

/-! ## After the first region: the three projections are the reference's -/

theorem q4 (b : Fin 2) (h : Fin 16) (s : Fin 2048) (d : Fin 64) :
    (V2 m ρ c main_v9_0 : S2x16x2048x64.Idx → EReal) (ix4 b h s d)
      = Cert.ReferenceIdeal.Read.val_main_v18 (F := Ideal) (aX m c) (aWq m c) (aBq m c) (aG m c) (ix4 b h s d) := by
  have hb := b.isLt; have hs := s.isLt
  rw [show (V2 m ρ c main_v9_0 : S2x16x2048x64.Idx → EReal) = ((dat0 (V1 m ρ) c).arrAt 8 cfg0.N : S2x16x2048x64.Idx → EReal) from W2_arr m ρ c 8,
    Cert.KernelIdeal.Region0.out_q (V1 m ρ) c b h s d ⟨b.val * 2048 + s.val, by omega⟩ rfl]
  simp only [fun k => h0_x m ρ c b s k ⟨b.val * 2048 + s.val, by omega⟩ rfl, h0_g m ρ c, h0_wq m ρ c, h0_bq m ρ c]
  exact (Cert.ReferenceIdeal.RefProj.q_apply (aX m c) (aG m c) (aWq m c) (aBq m c) b h s d).symm

theorem k4 (b : Fin 2) (h : Fin 16) (s : Fin 2048) (d : Fin 64) :
    (V2 m ρ c main_v9_1 : S2x16x2048x64.Idx → EReal) (ix4 b h s d)
      = Cert.ReferenceIdeal.Read.val_main_v24 (F := Ideal) (aX m c) (aWk m c) (aBk m c) (aG m c) (ix4 b h s d) := by
  have hb := b.isLt; have hs := s.isLt
  rw [show (V2 m ρ c main_v9_1 : S2x16x2048x64.Idx → EReal) = ((dat0 (V1 m ρ) c).arrAt 9 cfg0.N : S2x16x2048x64.Idx → EReal) from W2_arr m ρ c 9,
    Cert.KernelIdeal.Region0.out_k (V1 m ρ) c b h s d ⟨b.val * 2048 + s.val, by omega⟩ rfl]
  simp only [fun k => h0_x m ρ c b s k ⟨b.val * 2048 + s.val, by omega⟩ rfl, h0_g m ρ c, h0_wk m ρ c, h0_bk m ρ c]
  exact (Cert.ReferenceIdeal.RefProj.k_apply (aX m c) (aG m c) (aWk m c) (aBk m c) b h s d).symm

theorem v4 (b : Fin 2) (h : Fin 16) (s : Fin 2048) (d : Fin 64) :
    (V2 m ρ c main_v9_2 : S2x16x2048x64.Idx → EReal) (ix4 b h s d)
      = Cert.ReferenceIdeal.Read.val_main_v30 (F := Ideal) (aX m c) (aWv m c) (aBv m c) (aG m c) (ix4 b h s d) := by
  have hb := b.isLt; have hs := s.isLt
  rw [show (V2 m ρ c main_v9_2 : S2x16x2048x64.Idx → EReal) = ((dat0 (V1 m ρ) c).arrAt 10 cfg0.N : S2x16x2048x64.Idx → EReal) from W2_arr m ρ c 10,
    Cert.KernelIdeal.Region0.out_v (V1 m ρ) c b h s d ⟨b.val * 2048 + s.val, by omega⟩ rfl]
  simp only [fun k => h0_x m ρ c b s k ⟨b.val * 2048 + s.val, by omega⟩ rfl, h0_g m ρ c, h0_wv m ρ c, h0_bv m ρ c]
  exact (Cert.ReferenceIdeal.RefProj.v_apply (aX m c) (aG m c) (aWv m c) (aBv m c) b h s d).symm

/-! ## Before the second region: batch and head folded into one axis -/

theorem h1_q (b : Fin 2) (h : Fin 16) (s : Fin 2048) (d : Fin 64) (bh : Fin 32) (hbh : bh.val = b.val * 16 + h.val) :
    (V3 m ρ c main_v10 : S32x2048x64.Idx → EReal) (ix3 bh s d)
      = Cert.ReferenceIdeal.Read.val_main_v18 (F := Ideal) (aX m c) (aWq m c) (aBq m c) (aG m c) (ix4 b h s d) := by
  have e : (V3 m ρ c main_v10 : S32x2048x64.Idx → EReal) = shapeCast S32x2048x64 (V2 m ρ c main_v9_0 : S2x16x2048x64.Idx → EReal) Facts₀.shapeCasts_S2x16x2048x64_S32x2048x64 := by
    show StableHlo.after hostOps1 (W2 m ρ c) (Proc.devRef .tc main_v10) = _
    after_results
    rfl
  rw [e, Cert.LibHeadLayout.shapeCast_fold_apply _ _ b h s d bh hbh, q4]

theorem h1_k (b : Fin 2) (h : Fin 16) (s : Fin 2048) (d : Fin 64) (bh : Fin 32) (hbh : bh.val = b.val * 16 + h.val) :
    (V3 m ρ c main_v11 : S32x2048x64.Idx → EReal) (ix3 bh s d)
      = Cert.ReferenceIdeal.Read.val_main_v24 (F := Ideal) (aX m c) (aWk m c) (aBk m c) (aG m c) (ix4 b h s d) := by
  have e : (V3 m ρ c main_v11 : S32x2048x64.Idx → EReal) = shapeCast S32x2048x64 (V2 m ρ c main_v9_1 : S2x16x2048x64.Idx → EReal) Facts₀.shapeCasts_S2x16x2048x64_S32x2048x64 := by
    show StableHlo.after hostOps1 (W2 m ρ c) (Proc.devRef .tc main_v11) = _
    after_results
    rfl
  rw [e, Cert.LibHeadLayout.shapeCast_fold_apply _ _ b h s d bh hbh, k4]

theorem h1_v (b : Fin 2) (h : Fin 16) (s : Fin 2048) (d : Fin 64) (bh : Fin 32) (hbh : bh.val = b.val * 16 + h.val) :
    (V3 m ρ c main_v12 : S32x2048x64.Idx → EReal) (ix3 bh s d)
      = Cert.ReferenceIdeal.Read.val_main_v30 (F := Ideal) (aX m c) (aWv m c) (aBv m c) (aG m c) (ix4 b h s d) := by
  have e : (V3 m ρ c main_v12 : S32x2048x64.Idx → EReal) = shapeCast S32x2048x64 (V2 m ρ c main_v9_2 : S2x16x2048x64.Idx → EReal) Facts₀.shapeCasts_S2x16x2048x64_S32x2048x64 := by
    show StableHlo.after hostOps1 (W2 m ρ c) (Proc.devRef .tc main_v12) = _
    after_results
    rfl
  rw [e, Cert.LibHeadLayout.shapeCast_fold_apply _ _ b h s d bh hbh, v4]

/-- The mask reaches the second region as launched. -/
theorem h1_m : (V3 m ρ c main_arg1 : S1x1x2048x2048.Idx → BitVec 32) = aM m c := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-! ## After the second region: the weights and the context are the reference's -/

theorem attn4 (b : Fin 2) (h : Fin 16) (q k : Fin 2048) (bh : Fin 32) (hbh : bh.val = b.val * 16 + h.val) :
    (V4 m ρ c main_v13_0 : S32x2048x2048.Idx → EReal) (ix3 bh q k)
      = Cert.ReferenceIdeal.Read.val_main_v48 (F := Ideal) (aX m c) (aM m c) (aWq m c) (aBq m c) (aWk m c) (aBk m c) (aG m c) (ix4 b h q k) := by
  rw [show (V4 m ρ c main_v13_0 : S32x2048x2048.Idx → EReal) = ((dat1 (V3 m ρ) c).arrAt 4 cfg1.N : S32x2048x2048.Idx → EReal) from W4_arr m ρ c 4,
    Cert.KernelIdeal.Region1.out_attn (V3 m ρ) c bh q k]
  simp only [fun d => h1_q m ρ c b h q d bh hbh, fun k' d => h1_k m ρ c b h k' d bh hbh, h1_m m ρ c]
  exact (Cert.ReferenceIdeal.RefAttn.attn_apply (aX m c) (aM m c) (aWq m c) (aBq m c) (aWk m c) (aBk m c) (aG m c) b h q k).symm

theorem ctx4 (b : Fin 2) (h : Fin 16) (q : Fin 2048) (d : Fin 64) (bh : Fin 32) (hbh : bh.val = b.val * 16 + h.val) :
    (V4 m ρ c main_v13_1 : S32x2048x64.Idx → EReal) (ix3 bh q d)
      = Cert.ReferenceIdeal.Read.val_main_v49 (F := Ideal) (aX m c) (aM m c) (aWq m c) (aBq m c) (aWk m c) (aBk m c) (aWv m c) (aBv m c) (aG m c) (ix4 b h q d) := by
  rw [show (V4 m ρ c main_v13_1 : S32x2048x64.Idx → EReal) = ((dat1 (V3 m ρ) c).arrAt 5 cfg1.N : S32x2048x64.Idx → EReal) from W4_arr m ρ c 5,
    Cert.KernelIdeal.Region1.out_ctx (V3 m ρ) c bh q d, Cert.ReferenceIdeal.RefAttn.ctx_apply]
  simp only [fun d => h1_q m ρ c b h q d bh hbh, fun k' d => h1_k m ρ c b h k' d bh hbh, fun k' => h1_v m ρ c b h k' d bh hbh, h1_m m ρ c,
    Cert.ReferenceIdeal.RefAttn.attn_apply]

/-! ## Before the third region -/

theorem h2_c (b : Fin 2) (h : Fin 16) (s : Fin 2048) (d : Fin 64) :
    (V5 m ρ c main_v14 : S2x16x2048x64.Idx → EReal) (ix4 b h s d)
      = Cert.ReferenceIdeal.Read.val_main_v49 (F := Ideal) (aX m c) (aM m c) (aWq m c) (aBq m c) (aWk m c) (aBk m c) (aWv m c) (aBv m c) (aG m c) (ix4 b h s d) := by
  have hb := b.isLt; have hh := h.isLt
  have e : (V5 m ρ c main_v14 : S2x16x2048x64.Idx → EReal) = shapeCast S2x16x2048x64 (V4 m ρ c main_v13_1 : S32x2048x64.Idx → EReal) Facts₀.shapeCasts_S32x2048x64_S2x16x2048x64 := by
    show StableHlo.after hostOps2 (W4 m ρ c) (Proc.devRef .tc main_v14) = _
    after_results
    rfl
  rw [e, Cert.LibHeadLayout.shapeCast_unfold_apply _ _ b h s d ⟨b.val * 16 + h.val, by omega⟩ rfl, ctx4 m ρ c b h s d _ rfl]

/-- The flattened input reaches the third region as the first region found it. -/
theorem h2_x0 : (V5 m ρ c main_v0 : S4096x1024.Idx → EReal) = (V1 m ρ c main_v0 : S4096x1024.Idx → EReal) := by
  show StableHlo.after hostOps2 (W4 m ρ c) (Proc.devRef .tc main_v0) = _
  after_results
  rw [W4_of_ne m ρ c main_v0 (by decide)]
  show StableHlo.after hostOps1 (W2 m ρ c) (Proc.devRef .tc main_v0) = _
  after_results
  exact (W2_arr m ρ c 0).trans (((dat0 (V1 m ρ) c).arrAt_in 0 rfl _).trans (A_eq0 (V1 m ρ) c 0))

/-- The last weight matrix reaches the third region as the first host lines left it. -/
theorem h2_w0 : (V5 m ρ c main_v8 : S1024x1024.Idx → EReal) = (V1 m ρ c main_v8 : S1024x1024.Idx → EReal) := by
  show StableHlo.after hostOps2 (W4 m ρ c) (Proc.devRef .tc main_v8) = _
  after_results
  rw [W4_of_ne m ρ c main_v8 (by decide)]
  show StableHlo.after hostOps1 (W2 m ρ c) (Proc.devRef .tc main_v8) = _
  after_results
  exact W2_of_ne m ρ c main_v8 (by decide)

/-- The last bias reaches the third region as launched. -/
theorem h2_b : (V5 m ρ c main_arg9 : S1024.Idx → EReal) = aBo m c := by
  show StableHlo.after hostOps2 (W4 m ρ c) (Proc.devRef .tc main_arg9) = _
  after_results
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

/-! ## After the third region, and the results -/

theorem out2 (b : Fin 2) (s : Fin 2048) (e : Fin 1024) (R : Fin 4096) (hR : R.val = b.val * 2048 + s.val) :
    (V6 m ρ c main_v15 : S4096x1024.Idx → EReal) (ix2 R e)
      = Cert.ReferenceIdeal.Read.val_main_v56 (F := Ideal) (aX m c) (aM m c) (aWq m c) (aBq m c) (aWk m c) (aBk m c) (aWv m c) (aBv m c) (aWo m c) (aBo m c) (aG m c) (ix3 b s e) := by
  rw [show (V6 m ρ c main_v15 : S4096x1024.Idx → EReal) = ((dat2 (V5 m ρ) c).arrAt 4 cfg2.N : S4096x1024.Idx → EReal) from W6_arr m ρ c 4,
    Cert.KernelIdeal.Region2.out_o (V5 m ρ) c R e b s hR, h2_x0, h2_w0, h2_b]
  simp only [h0_x m ρ c b s e R hR, h2_c m ρ c, h0_wo m ρ c]
  exact (Cert.ReferenceIdeal.RefAttn.out_apply (aX m c) (aM m c) (aWq m c) (aBq m c) (aWk m c) (aBk m c) (aWv m c) (aBv m c) (aWo m c) (aBo m c) (aG m c) b s e).symm

/-- THE FIRST RESULT is the reference's first result, as a function of the arguments. -/
theorem result0 :
    (W7 m ρ c (Proc.devRef .tc main_v16) : S2x2048x1024.Idx → EReal)
      = Cert.ReferenceIdeal.Read.val_main_v56 (F := Ideal) (aX m c) (aM m c) (aWq m c) (aBq m c) (aWk m c) (aBk m c) (aWv m c) (aBv m c) (aWo m c) (aBo m c) (aG m c) := by
  have e : (W7 m ρ c (Proc.devRef .tc main_v16) : S2x2048x1024.Idx → EReal) = shapeCast S2x2048x1024 (V6 m ρ c main_v15 : S4096x1024.Idx → EReal) Facts₀.shapeCasts_S4096x1024_S2x2048x1024 := by
    show StableHlo.after hostOps3 (W6 m ρ c) (Proc.devRef .tc main_v16) = _
    after_results
    rfl
  funext i
  obtain ⟨b, s, k, rfl⟩ : ∃ (b : Fin 2) (s : Fin 2048) (k : Fin 1024), i = ix3 b s k := ⟨i 0, i 1, i 2, eq_ix3 i⟩
  have hb := b.isLt; have hs := s.isLt
  rw [e, Cert.LibRowsFlatten.shapeCast_unflatten_apply _ _ b s k ⟨b.val * 2048 + s.val, by omega⟩ rfl, out2 m ρ c b s k _ rfl]

/-- THE SECOND RESULT is the reference's second result, as a function of the arguments. -/
theorem result1 :
    (W7 m ρ c (Proc.devRef .tc main_v17) : S2x16x2048x2048.Idx → EReal)
      = Cert.ReferenceIdeal.Read.val_main_v48 (F := Ideal) (aX m c) (aM m c) (aWq m c) (aBq m c) (aWk m c) (aBk m c) (aG m c) := by
  have e : (W7 m ρ c (Proc.devRef .tc main_v17) : S2x16x2048x2048.Idx → EReal) = shapeCast S2x16x2048x2048 (V4 m ρ c main_v13_0 : S32x2048x2048.Idx → EReal) Facts₀.shapeCasts_S32x2048x2048_S2x16x2048x2048 := by
    show StableHlo.after hostOps3 (W6 m ρ c) (Proc.devRef .tc main_v17) = _
    after_results
    rw [W6_of_ne m ρ c main_v13_0 (by decide)]
    show shapeCast _ (StableHlo.after hostOps2 (W4 m ρ c) (Proc.devRef .tc main_v13_0)) _ = _
    after_results
    rfl
  funext i
  obtain ⟨b, h, q, k, rfl⟩ : ∃ (b : Fin 2) (h : Fin 16) (q k : Fin 2048), i = ix4 b h q k := ⟨i 0, i 1, i 2, i 3, eq_ix4 i⟩
  have hb := b.isLt; have hh := h.isLt
  rw [e, Cert.LibHeadLayout.shapeCast_unfold_apply _ _ b h q k ⟨b.val * 16 + h.val, by omega⟩ rfl, attn4 m ρ c b h q k _ rfl]

end Cert.KernelIdeal.Chain

end
-- ==== Proof.lean ====
/-
  Pre-normalised multi-head attention with an output projection and a residual, in three kernels, against its
  plain reference: the proof of the certificate's claim.

  Both programs normalise every input row by its root mean square, project it three times (queries, keys,
  values) and split the projections into 16 heads of width 64; form the scores of every query against every key
  of its head, scaled by 1/8 (the reference divides by the square root of 64, which is 8), and masked where the
  mask is zero; take the softmax along the keys; multiply the weights into the values; merge the heads, project
  once more, add the bias and the input.  The kernel does this in three grids of blocks whose blocks tile their
  output arrays, with the batch and head axes folded and unfolded by reshapes in between; on the extended reals
  every entry of every stage is the same expression on both sides, so no finiteness of the inputs is used.

  The three frames: the two kernel programs' are the generated frame certificates; the reference's is its run
  with the results dropped.  The idealization rewrote nothing, so `preserves` is trivial.  The algebraic claim
  takes the kernel's run with its results named at the last boundary's contents, which are the reference's
  result functions of the arguments (Proof/Chain.lean), and the reference's run, whose results are the same
  functions of arguments that agree.
-/
import proofs.«104772_j69398081569166_2_alg».proof.Defs
import proofs.«104772_j69398081569166_2_alg».proof.Proof.Gen.Kernel
import proofs.«104772_j69398081569166_2_alg».proof.Proof.Gen.Kernel.Skeleton
import proofs.«104772_j69398081569166_2_alg».proof.Proof.Gen.Kernel.Launch
import proofs.«104772_j69398081569166_2_alg».proof.Proof.Gen.Kernel.Points
import proofs.«104772_j69398081569166_2_alg».proof.Proof.Gen.Kernel.Frame
import proofs.«104772_j69398081569166_2_alg».proof.Proof.Gen.KernelIdeal
import proofs.«104772_j69398081569166_2_alg».proof.Proof.Gen.KernelIdeal.Skeleton
import proofs.«104772_j69398081569166_2_alg».proof.Proof.Gen.KernelIdeal.Launch
import proofs.«104772_j69398081569166_2_alg».proof.Proof.Gen.KernelIdeal.Points
import proofs.«104772_j69398081569166_2_alg».proof.Proof.Gen.KernelIdeal.Frame
import proofs.«104772_j69398081569166_2_alg».proof.Proof.Gen.ReferenceIdeal
import proofs.«104772_j69398081569166_2_alg».proof.Proof.Gen.ReferenceIdeal.Run
import proofs.«104772_j69398081569166_2_alg».proof.Proof.Gen.ReferenceIdeal.Read
import proofs.«104772_j69398081569166_2_alg».proof.Proof.Gen.Pre_finite_inputs
import proofs.«104772_j69398081569166_2_alg».proof.Proof.KernelRun
import proofs.«104772_j69398081569166_2_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The kernel's results are the reference's result functions of the kernel's arguments; the reference's are the
    same functions of its own arguments, which agree. -/
theorem algebraic : Cert.algebraic_KernelIdeal_ReferenceIdeal := by
  intro m ρ m' ρ' _ hagree
  refine ⟨fun c => Cert.KernelIdeal.Gen.W7 m ρ c (Proc.devRef .tc Cert.KernelIdeal.main_v16),
    fun c => Cert.KernelIdeal.Gen.W7 m ρ c (Proc.devRef .tc Cert.KernelIdeal.main_v17), Cert.KernelIdeal.Named.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v56_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact (Cert.KernelIdeal.Chain.result0 m ρ c).symm
  · rw [Cert.ReferenceIdeal.Read.val_main_v48_eq, (hagree c).1, (hagree c).2.1, (hagree c).2.2.1, (hagree c).2.2.2.1, (hagree c).2.2.2.2.1,
      (hagree c).2.2.2.2.2.1, (hagree c).2.2.2.2.2.2.2.2.2.2]
    exact (Cert.KernelIdeal.Chain.result1 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
